-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : FVec F S128x128 .f32) (main_arg2 : FVec F S128 .f32) (main_arg3 : IVec S1600000 32) (main_arg4 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S10000x128 : Shape := ⟨2, ![10000, 128]⟩
abbrev S1x128 : Shape := ⟨2, ![1, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S100000x3 : Shape := ⟨2, ![100000, 3]⟩
abbrev S5000x128 : Shape := ⟨2, ![5000, 128]⟩
abbrev S5000x3 : Shape := ⟨2, ![5000, 3]⟩
abbrev S5000x1 : Shape := ⟨2, ![5000, 1]⟩

abbrev nBuf : Space → Nat
  | .hbm => 57
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S1600000, .i32⟩
  | .hbm, ⟨4, _⟩ => ⟨S1600000, .i32⟩
  | .hbm, ⟨5, _⟩ => ⟨S100000x128, .f32⟩
  | .hbm, ⟨6, _⟩ => ⟨S_, .f32⟩
  | .hbm, ⟨7, _⟩ => ⟨S1600000, .f32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000x1, .f32⟩
  | .hbm, ⟨41, _⟩ => ⟨S1600000x128, .f32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S100000, .f32⟩
  | .hbm, ⟨52, _⟩ => ⟨S100000x1, .f32⟩
  | .hbm, ⟨53, _⟩ => ⟨S100000x1, .f32⟩
  | .hbm, ⟨54, _⟩ => ⟨S100000x1, .f32⟩
  | .hbm, ⟨55, _⟩ => ⟨S100000x3, .f32⟩
  | .hbm, ⟨56, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128, .f32⟩
  | .local _ .vmem, ⟨4, _⟩ => ⟨S10000x128, .f32⟩
  | .local _ .vmem, ⟨5, _⟩ => ⟨S10000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x3, .f32⟩
  | .local _ .vmem, ⟨13, _⟩ => ⟨S5000x3, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  concatenates_S100000x1_S100000x1_S100000x1_S100000x3_d1 : Shape.Concatenates [S100000x1, S100000x1, S100000x1] S100000x3 1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x3_S5000x1_0_0 : ∀ a, (![0, 0] : Fin 2 → Nat) a + S5000x1.size a ≤ S5000x3.size a
  h_S5000x1 : 0 < S5000x1.numel
  shapeCasts_S5000x1_S5000x1 : S5000x1.ShapeCasts S5000x1
  inb_S5000x3_S5000x1_0_1 : ∀ a, (![0, 1] : Fin 2 → Nat) a + S5000x1.size a ≤ S5000x3.size a
  inb_S5000x3_S5000x1_0_2 : ∀ a, (![0, 2] : Fin 2 → Nat) a + S5000x1.size a ≤ S5000x3.size a
  broadcasts_S5000x1_S5000x128 : S5000x1.Broadcasts S5000x128
  dot_S10000x128_S128x128_S10000x128_1_0_0_1_n_n_wf : DotDims.WF S10000x128 S128x128 S10000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  gather_S100000_S1600000x1_S1600000_n_0_n_n_0_1_1_wf : GatherDims.WF S100000 S1600000x1 S1600000 [] [0] [] [0] [] 1 ![1]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x3.size a ≤ S100000x3.size a
  hwx1_3 : ∀ i : grid1.Coords, EltTy.bits .f32 = 32 ∨ (Rect.block (s := S100000x3) S5000x3.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S5000x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v40) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S1x128 : Shape := ⟨2, ![1, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S1600000, .i32⟩
  | .hbm, ⟨4, _⟩ => ⟨S1600000, .i32⟩
  | .hbm, ⟨5, _⟩ => ⟨S128x128, .f32⟩
  | .hbm, ⟨6, _⟩ => ⟨S100000x128, .f32⟩
  | .hbm, ⟨7, _⟩ => ⟨S1x128, .f32⟩
  | .hbm, ⟨8, _⟩ => ⟨S100000x128, .f32⟩
  | .hbm, ⟨9, _⟩ => ⟨S100000x128, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000x1, .f32⟩
  | .hbm, ⟨39, _⟩ => ⟨S1600000x128, .f32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S100000x1, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S100000x128, .f32⟩
  | .hbm, ⟨77, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_6 : Ref sig .tc := ⟨.hbm, 52, rfl⟩
abbrev main_v39 : Ref sig .tc := ⟨.hbm, 53, rfl⟩
abbrev main_v40 : Ref sig .tc := ⟨.hbm, 54, rfl⟩
abbrev main_c_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_v55 : Ref sig .tc := ⟨.hbm, 73, rfl⟩
abbrev main_v56 : Ref sig .tc := ⟨.hbm, 74, rfl⟩
abbrev main_call0_cst : Ref sig .tc := ⟨.hbm, 75, rfl⟩
abbrev main_call0_v0 : Ref sig .tc := ⟨.hbm, 76, rfl⟩
abbrev main_v57 : Ref sig .tc := ⟨.hbm, 77, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  gather_S100000_S1600000x1_S1600000_n_0_n_n_0_1_1_wf : GatherDims.WF S100000 S1600000x1 S1600000 [] [0] [] [0] [] 1 ![1]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.RunData.lean ====
/-
  The contents of the TensorCore's buffers through the program's run, and each pallas_call's proof data.

  The program is: the projection kernel (ten row blocks of 10000 rows; each block is the block of `X` times the
  transpose of `W`, plus the bias row), then one stretch of host operations (degrees, their inverse square roots, the
  gathers along the edges and the two row sums into the destination rows, the three per-row scales stacked as columns),
  then the combining kernel (twenty row blocks of 5000 rows; each output entry a pointwise expression of the entries of
  the projection, the two row sums and the three scales of its row).

  Here: a window's block at a grid point read off the contents the region is entered with; what each body leaves in its
  output buffer as a function of its input blocks (the one store over the named payload); the proof data of each
  pipeline at a parameter `V` (the entry contents); and the buffer contents at the four boundaries of the run — the launch
  memory, after the first region's write-backs, after the host stretch, after the second region's write-backs.
-/
import proofs.«155261_j31147102831210_1_alg».proof.Proof.Gen.KernelIdeal.Launch
import proofs.«155261_j31147102831210_1_alg».proof.Proof.Gen.KernelIdeal.Skeleton
import proofs.«155261_j31147102831210_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

section Regions

variable (V : (c : Dev nD) → (b : Ref sig .tc) → Buf (Elt F) ((c : Thread nD τ).loc b))

/-! ## The projection kernel (pipeline 0) at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of a [10000, 128] buffer, of a [128, 128] buffer and of a [128] buffer: the body's three loads and its store. -/
abbrev r0_x : Rect S10000x128 := Rect.unit (s := S10000x128) ![0, 0] S10000x128.size inb_S10000x128_S10000x128_0_0
abbrev r0_w : Rect S128x128 := Rect.unit (s := S128x128) ![0, 0] S128x128.size inb_S128x128_S128x128_0_0
abbrev r0_b : Rect S128 := Rect.unit (s := S128) ![0] S128.size inb_S128_S128_0

/-- The output buffer after the body: its one store, of the payload of the three input blocks. -/
def out0_3 (x0 : Vec F S10000x128 .f32) (x1 : Vec F S128x128 .f32) (x2 : Vec F S128 .f32) : Vec F S10000x128 .f32 :=
  View.canon [⟨r0_x, k0_pay1 (View.ld x0 r0_x) (View.ld x1 r0_w) (View.ld x2 r0_b)⟩]

/-- The proof data of pipeline 0 on core `c`: the arrays as the region finds them; after the body each input's buffer
    at its block and the output's at `out0_3` of the input blocks; the scoped rest and the generator register untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## The combining kernel (pipeline 1) at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole of a [5000, 128] buffer, and the three columns of a [5000, 3] buffer. -/
abbrev r1_x : Rect S5000x128 := Rect.unit (s := S5000x128) ![0, 0] S5000x128.size inb_S5000x128_S5000x128_0_0
abbrev r1_c0 : Rect S5000x3 := Rect.unit (s := S5000x3) ![0, 0] S5000x1.size inb_S5000x3_S5000x1_0_0
abbrev r1_c1 : Rect S5000x3 := Rect.unit (s := S5000x3) ![0, 1] S5000x1.size inb_S5000x3_S5000x1_0_1
abbrev r1_c2 : Rect S5000x3 := Rect.unit (s := S5000x3) ![0, 2] S5000x1.size inb_S5000x3_S5000x1_0_2

/-- The output buffer after the body: its one store, of the payload of the three full blocks and the three columns
    of the scale block. -/
def out1_4 (x0 x1 x2 : Vec F S5000x128 .f32) (x3 : Vec F S5000x3 .f32) : Vec F S5000x128 .f32 :=
  View.canon [⟨r1_x, k1_pay1 (View.ld x0 r1_x) (View.ld x1 r1_x) (View.ld x2 r1_x) (View.ld x3 r1_c0) (View.ld x3 r1_c1) (View.ld x3 r1_c2)⟩]

/-- The proof data of pipeline 1 on core `c`, as for pipeline 0. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

end Regions

/-! ## The buffer contents at each boundary of the run -/

/-- Core `c`'s buffers at launch: what the projection kernel is entered with. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the projection kernel: its arrays at what the pipeline leaves (the inputs as entered, the output's
    write-backs folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host stretch: what the combining kernel is entered with. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- After the combining kernel: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family -/

/-- No pipeline has a prefetched table. -/
abbrev adm : (p : Fin 2) → (pcfgs (F := F) p).Adm := fun p => (cfgs p).toPCfg_adm

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c

end Cert.KernelIdeal.Hand

end
-- ==== Proof.RunBody0.lean ====
/-
  The projection kernel's body at a grid point.

  The body loads the whole of its three input buffers (the block of `X`, `W`, the bias row), loads the whole of its
  output buffer without using what it read, and stores one payload over the whole output buffer. Here: each input
  buffer holds its window's block at every point; the one store covers the output buffer; so the body, run on buffers
  holding the three blocks and anything in the output buffer, leaves the inputs as they were and the output buffer at
  `out0_3` of the blocks. That is the pipeline's body obligation at every point.
-/
import proofs.«155261_j31147102831210_1_alg».proof.Proof.RunData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input buffer -/

/-- Input window 0's current staging buffer holds the window's block at every point, whether or not the block was
    fetched there (unfetched, the block index has not moved since the point before), for any proof data whose array is
    the entry contents' and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at every point, whether or not the block was
    fetched there (unfetched, the block index has not moved since the point before), for any proof data whose array is
    the entry contents' and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block at every point, whether or not the block was
    fetched there (unfetched, the block index has not moved since the point before), for any proof data whose array is
    the entry contents' and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The one store covers the output buffer -/

/-- The store's rectangle is the whole buffer: one tile of the buffer's own size. -/
theorem cover0_3 (p0 : Vec F S10000x128 .f32) (y : S10000x128.Idx) :
    ∃ pc ∈ ([⟨r0_x, p0⟩] : List (View.Piece (Elt F) S10000x128 .f32)), y ∈ pc.1.set :=
  View.cover_of_tiled [⟨r0_x, p0⟩] S10000x128.size (by rfl) y

/-! ## The body's triple -/

set_option maxHeartbeats 1000000 in
/-- The body on whole buffers, the inputs' reading `x0`, `x1`, `x2` and the output's holding anything, runs to the
    continuation with the inputs' as they were and the output's reading `out0_3 x0 x1 x2`: the load of the output
    buffer reads whatever it held and is not used, and the store that follows covers it. -/
theorem sound_kernel0 (c : Dev nD) (E : Set ℕ) (i : grid0.Coords)
    (arg1 : Memref sig .tc .vmem S10000x128 .f32) (harg1 : arg1.IsWhole) (arg2 : Memref sig .tc .vmem S128x128 .f32) (harg2 : arg2.IsWhole)
    (arg3 : Memref sig .tc .vmem S128 .f32) (harg3 : arg3.IsWhole) (arg4 : Memref sig .tc .vmem S10000x128 .f32) (harg4 : arg4.IsWhole)
    (x0 : Vec F S10000x128 .f32) (x1 : Vec F S128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data's input buffers -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.RunBody1.lean ====
/-
  The combining kernel's body at a grid point.

  The body loads the whole of its three [5000, 128] input buffers, the three columns of its [5000, 3] input buffer,
  loads the whole of its output buffer without using what it read, and stores one payload over the whole output buffer.
  Here: each input buffer holds its window's block at every point; the one store covers the output buffer; so the body,
  run on buffers holding the four blocks and anything in the output buffer, leaves the inputs as they were and the
  output buffer at `out1_4` of the blocks. That is the pipeline's body obligation at every point.
-/
import proofs.«155261_j31147102831210_1_alg».proof.Proof.RunData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input buffer -/

/-- Input window 0's current staging buffer holds the window's block at every point, whether or not the block was
    fetched there (unfetched, the block index has not moved since the point before), for any proof data whose array is
    the entry contents' and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every point, whether or not the block was
    fetched there (unfetched, the block index has not moved since the point before), for any proof data whose array is
    the entry contents' and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every point, whether or not the block was
    fetched there (unfetched, the block index has not moved since the point before), for any proof data whose array is
    the entry contents' and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block at every point, whether or not the block was
    fetched there (unfetched, the block index has not moved since the point before), for any proof data whose array is
    the entry contents' and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The one store covers the output buffer -/

/-- The store's rectangle is the whole buffer: one tile of the buffer's own size. -/
theorem cover1_4 (p0 : Vec F S5000x128 .f32) (y : S5000x128.Idx) :
    ∃ pc ∈ ([⟨r1_x, p0⟩] : List (View.Piece (Elt F) S5000x128 .f32)), y ∈ pc.1.set :=
  View.cover_of_tiled [⟨r1_x, p0⟩] S5000x128.size (by rfl) y

/-! ## The body's triple -/

set_option maxHeartbeats 1000000 in
/-- The body on whole buffers, the inputs' reading `x0`, `x1`, `x2`, `x3` and the output's holding anything, runs to the
    continuation with the inputs' as they were and the output's reading `out1_4 x0 x1 x2 x3`: the load of the output
    buffer reads whatever it held and is not used, and the store that follows covers it. -/
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x3 .f32) (harg4 : arg4.IsWhole)
    (arg5 : Memref sig .tc .vmem S5000x128 .f32) (harg5 : arg5.IsWhole)
    (x0 : Vec F S5000x128 .f32) (x1 : Vec F S5000x128 .f32) (x2 : Vec F S5000x128 .f32) (x3 : Vec F S5000x3 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__fuse_kernel i arg1 harg1 arg2 harg2 arg3 harg3 arg4 harg4 arg5 harg5) K := by
  simp only [cc1__fuse_kernel_eq_skeleton]; unfold cc1__fuse_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data's input buffers -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input buffers hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.RunMain.lean ====
/-
  The run of the whole program: the projection kernel, the host stretch, the combining kernel, as three segments
  from the launch memory to the return.

  Between two segments each core holds every unscoped buffer whole at the boundary's contents (`W0`, `W1`, `W2`, `W3`),
  its generator register at some state, and owes nothing. A kernel region splits its windows' arrays out of the unscoped
  buffers at entry and puts them back at what its write-backs leave at exit; the host stretch runs its operations over
  the unscoped buffers. The launch theorem then gives: every weakly fair execution terminates, and the final memory
  holds every unscoped buffer at `W3`. No segment writes an argument array, so `W3` at an argument is the launch memory.
-/
import proofs.«155261_j31147102831210_1_alg».proof.Proof.RunBody0
import proofs.«155261_j31147102831210_1_alg».proof.Proof.RunBody1
import proofs.«155261_j31147102831210_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched

No host operation writes an argument and no region writes one (the projection kernel reads the first three through input
windows, which the pipeline leaves as entered; the other two are no window of it; none is a window of the combining
kernel), so the contents at an argument's buffer walk back through the boundaries to the launch memory. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl

/-! ## The thread state between segments -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it owes,
    which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along; it ends with those
    references at the contents after its operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as segments -/

-- unifying a library lemma stated over the pinned configuration with the printed one takes unfolding plain definitions in a
-- metavariable's type
set_option backward.isDefEq.respectTransparency.types false in
/-- The projection kernel's region: entered from every unscoped buffer at `W0`, left at `W1`. Its arrays split out of the
    unscoped buffers at entry and are put back at the exit contents; the generator register goes into the pipeline's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain definitions in a
-- metavariable's type
set_option backward.isDefEq.respectTransparency.types false in
/-- The combining kernel's region: entered from every unscoped buffer at `W2`, left at `W3`, as the projection kernel's. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
/-- The program is the run of the segments: it is the chain of its items, which the segments' run unfolds to. -/
theorem main_run (c : Dev nD) : main (F := F) c = Pipeline.Seg.run (segs m ρ) := (main_chain c).trans (by chain_rfl)

-- the launch theorem's implicit arguments are found by unifying its conclusion with this one, which takes unfolding plain
-- definitions in a metavariable's type
set_option backward.isDefEq.respectTransparency.types false in
/-- From any memory with zero counters, every weakly fair execution of the program on the TensorCores terminates, nothing
    faulting, and in every final state each core's unscoped buffers hold the last boundary's contents `W3`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h => h)

end Cert.KernelIdeal.Hand

end
-- ==== Proof.RunClaims.lean ====
/-
  The run, read at the buffers the claims name.

  `run_all` says that in every final state each core's unscoped buffers hold the last boundary's contents `W3`. The
  argument arrays and the result array are unscoped buffers, and `W3` at an argument is the launch memory
  (`W3_main_argK`). So: every argument array ends as launched (`frame`), and the result array ends at `W3`'s contents
  for it while every argument array ends as launched (`run_out`).
-/
import proofs.«155261_j31147102831210_1_alg».proof.Proof.RunMain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- From any memory with zero counters, every weakly fair execution of the program on the TensorCores terminates, nothing
    faulting, and every final state has each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c)⟩) (run_all m ρ)

/-- The same run, read also at the result array: it ends holding the last boundary's contents for it. -/
theorem run_out : θ_run defs (onTc (τ := τ) (main (F := F))) ⟨m, fun _ => 0, ρ⟩ (fun r => ∀ c : Dev nD,
      r.2.mem ((c.tc : Thread nD τ).loc main_v40) = W3 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v40 (by decide)),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c)⟩) (run_all m ρ)

end Cert.KernelIdeal.Hand

end
-- ==== Proof.KRunData.lean ====
/-
  The contents of the TensorCore's buffers through the program's run, and each pallas_call's proof data.

  The program is: the projection kernel (ten row blocks of 10000 rows; each block is the block of `X` times the
  transpose of `W`, plus the bias row), then one stretch of host operations (degrees, their inverse square roots, the
  gathers along the edges and the two row sums into the destination rows, the three per-row scales stacked as columns),
  then the combining kernel (twenty row blocks of 5000 rows; each output entry a pointwise expression of the entries of
  the projection, the two row sums and the three scales of its row).

  Here: a window's block at a grid point read off the contents the region is entered with; what each body leaves in its
  output buffer as a function of its input blocks (the one store over the named payload); the proof data of each
  pipeline at a parameter `V` (the entry contents); and the buffer contents at the four boundaries of the run — the launch
  memory, after the first region's write-backs, after the host stretch, after the second region's write-backs.
-/
import proofs.«155261_j31147102831210_1_alg».proof.Proof.Gen.Kernel.Launch
import proofs.«155261_j31147102831210_1_alg».proof.Proof.Gen.Kernel.Skeleton
import proofs.«155261_j31147102831210_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

section Regions

variable (V : (c : Dev nD) → (b : Ref sig .tc) → Buf (Elt F) ((c : Thread nD τ).loc b))

/-! ## The projection kernel (pipeline 0) at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of a [10000, 128] buffer, of a [128, 128] buffer and of a [128] buffer: the body's three loads and its store. -/
abbrev r0_x : Rect S10000x128 := Rect.unit (s := S10000x128) ![0, 0] S10000x128.size inb_S10000x128_S10000x128_0_0
abbrev r0_w : Rect S128x128 := Rect.unit (s := S128x128) ![0, 0] S128x128.size inb_S128x128_S128x128_0_0
abbrev r0_b : Rect S128 := Rect.unit (s := S128) ![0] S128.size inb_S128_S128_0

/-- The output buffer after the body: its one store, of the payload of the three input blocks. -/
def out0_3 (x0 : Vec F S10000x128 .f32) (x1 : Vec F S128x128 .f32) (x2 : Vec F S128 .f32) : Vec F S10000x128 .f32 :=
  View.canon [⟨r0_x, k0_pay1 (View.ld x0 r0_x) (View.ld x1 r0_w) (View.ld x2 r0_b)⟩]

/-- The proof data of pipeline 0 on core `c`: the arrays as the region finds them; after the body each input's buffer
    at its block and the output's at `out0_3` of the input blocks; the scoped rest and the generator register untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## The combining kernel (pipeline 1) at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole of a [5000, 128] buffer, and the three columns of a [5000, 3] buffer. -/
abbrev r1_x : Rect S5000x128 := Rect.unit (s := S5000x128) ![0, 0] S5000x128.size inb_S5000x128_S5000x128_0_0
abbrev r1_c0 : Rect S5000x3 := Rect.unit (s := S5000x3) ![0, 0] S5000x1.size inb_S5000x3_S5000x1_0_0
abbrev r1_c1 : Rect S5000x3 := Rect.unit (s := S5000x3) ![0, 1] S5000x1.size inb_S5000x3_S5000x1_0_1
abbrev r1_c2 : Rect S5000x3 := Rect.unit (s := S5000x3) ![0, 2] S5000x1.size inb_S5000x3_S5000x1_0_2

/-- The output buffer after the body: its one store, of the payload of the three full blocks and the three columns
    of the scale block. -/
def out1_4 (x0 x1 x2 : Vec F S5000x128 .f32) (x3 : Vec F S5000x3 .f32) : Vec F S5000x128 .f32 :=
  View.canon [⟨r1_x, k1_pay1 (View.ld x0 r1_x) (View.ld x1 r1_x) (View.ld x2 r1_x) (View.ld x3 r1_c0) (View.ld x3 r1_c1) (View.ld x3 r1_c2)⟩]

/-- The proof data of pipeline 1 on core `c`, as for pipeline 0. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

end Regions

/-! ## The buffer contents at each boundary of the run -/

/-- Core `c`'s buffers at launch: what the projection kernel is entered with. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the projection kernel: its arrays at what the pipeline leaves (the inputs as entered, the output's
    write-backs folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host stretch: what the combining kernel is entered with. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- After the combining kernel: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family -/

/-- No pipeline has a prefetched table. -/
abbrev adm : (p : Fin 2) → (pcfgs (F := F) p).Adm := fun p => (cfgs p).toPCfg_adm

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c

end Cert.Kernel.Hand

end
-- ==== Proof.KRunBody0.lean ====
/-
  The projection kernel's body at a grid point.

  The body loads the whole of its three input buffers (the block of `X`, `W`, the bias row), loads the whole of its
  output buffer without using what it read, and stores one payload over the whole output buffer. Here: each input
  buffer holds its window's block at every point; the one store covers the output buffer; so the body, run on buffers
  holding the three blocks and anything in the output buffer, leaves the inputs as they were and the output buffer at
  `out0_3` of the blocks. That is the pipeline's body obligation at every point.
-/
import proofs.«155261_j31147102831210_1_alg».proof.Proof.KRunData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input buffer -/

/-- Input window 0's current staging buffer holds the window's block at every point, whether or not the block was
    fetched there (unfetched, the block index has not moved since the point before), for any proof data whose array is
    the entry contents' and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds the window's block at every point, whether or not the block was
    fetched there (unfetched, the block index has not moved since the point before), for any proof data whose array is
    the entry contents' and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds the window's block at every point, whether or not the block was
    fetched there (unfetched, the block index has not moved since the point before), for any proof data whose array is
    the entry contents' and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The one store covers the output buffer -/

/-- The store's rectangle is the whole buffer: one tile of the buffer's own size. -/
theorem cover0_3 (p0 : Vec F S10000x128 .f32) (y : S10000x128.Idx) :
    ∃ pc ∈ ([⟨r0_x, p0⟩] : List (View.Piece (Elt F) S10000x128 .f32)), y ∈ pc.1.set :=
  View.cover_of_tiled [⟨r0_x, p0⟩] S10000x128.size (by rfl) y

/-! ## The body's triple -/

set_option maxHeartbeats 1000000 in
/-- The body on whole buffers, the inputs' reading `x0`, `x1`, `x2` and the output's holding anything, runs to the
    continuation with the inputs' as they were and the output's reading `out0_3 x0 x1 x2`: the load of the output
    buffer reads whatever it held and is not used, and the store that follows covers it. -/
theorem sound_kernel0 (c : Dev nD) (E : Set ℕ) (i : grid0.Coords)
    (arg1 : Memref sig .tc .vmem S10000x128 .f32) (harg1 : arg1.IsWhole) (arg2 : Memref sig .tc .vmem S128x128 .f32) (harg2 : arg2.IsWhole)
    (arg3 : Memref sig .tc .vmem S128 .f32) (harg3 : arg3.IsWhole) (arg4 : Memref sig .tc .vmem S10000x128 .f32) (harg4 : arg4.IsWhole)
    (x0 : Vec F S10000x128 .f32) (x1 : Vec F S128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data's input buffers -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRunBody1.lean ====
/-
  The combining kernel's body at a grid point.

  The body loads the whole of its three [5000, 128] input buffers, the three columns of its [5000, 3] input buffer,
  loads the whole of its output buffer without using what it read, and stores one payload over the whole output buffer.
  Here: each input buffer holds its window's block at every point; the one store covers the output buffer; so the body,
  run on buffers holding the four blocks and anything in the output buffer, leaves the inputs as they were and the
  output buffer at `out1_4` of the blocks. That is the pipeline's body obligation at every point.
-/
import proofs.«155261_j31147102831210_1_alg».proof.Proof.KRunData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input buffer -/

/-- Input window 0's current staging buffer holds the window's block at every point, whether or not the block was
    fetched there (unfetched, the block index has not moved since the point before), for any proof data whose array is
    the entry contents' and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every point, whether or not the block was
    fetched there (unfetched, the block index has not moved since the point before), for any proof data whose array is
    the entry contents' and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every point, whether or not the block was
    fetched there (unfetched, the block index has not moved since the point before), for any proof data whose array is
    the entry contents' and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block at every point, whether or not the block was
    fetched there (unfetched, the block index has not moved since the point before), for any proof data whose array is
    the entry contents' and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The one store covers the output buffer -/

/-- The store's rectangle is the whole buffer: one tile of the buffer's own size. -/
theorem cover1_4 (p0 : Vec F S5000x128 .f32) (y : S5000x128.Idx) :
    ∃ pc ∈ ([⟨r1_x, p0⟩] : List (View.Piece (Elt F) S5000x128 .f32)), y ∈ pc.1.set :=
  View.cover_of_tiled [⟨r1_x, p0⟩] S5000x128.size (by rfl) y

/-! ## The body's triple -/

set_option maxHeartbeats 1000000 in
/-- The body on whole buffers, the inputs' reading `x0`, `x1`, `x2`, `x3` and the output's holding anything, runs to the
    continuation with the inputs' as they were and the output's reading `out1_4 x0 x1 x2 x3`: the load of the output
    buffer reads whatever it held and is not used, and the store that follows covers it. -/
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S5000x128 .f32) (harg3 : arg3.IsWhole) (arg4 : Memref sig .tc .vmem S5000x3 .f32) (harg4 : arg4.IsWhole)
    (arg5 : Memref sig .tc .vmem S5000x128 .f32) (harg5 : arg5.IsWhole)
    (x0 : Vec F S5000x128 .f32) (x1 : Vec F S5000x128 .f32) (x2 : Vec F S5000x128 .f32) (x3 : Vec F S5000x3 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__fuse_kernel i arg1 harg1 arg2 harg2 arg3 harg3 arg4 harg4 arg5 harg5) K := by
  simp only [cc1__fuse_kernel_eq_skeleton]; unfold cc1__fuse_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data's input buffers -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input buffers hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRunMain.lean ====
/-
  The run of the whole program: the projection kernel, the host stretch, the combining kernel, as three segments
  from the launch memory to the return.

  Between two segments each core holds every unscoped buffer whole at the boundary's contents (`W0`, `W1`, `W2`, `W3`),
  its generator register at some state, and owes nothing. A kernel region splits its windows' arrays out of the unscoped
  buffers at entry and puts them back at what its write-backs leave at exit; the host stretch runs its operations over
  the unscoped buffers. The launch theorem then gives: every weakly fair execution terminates, and the final memory
  holds every unscoped buffer at `W3`. No segment writes an argument array, so `W3` at an argument is the launch memory.
-/
import proofs.«155261_j31147102831210_1_alg».proof.Proof.KRunBody0
import proofs.«155261_j31147102831210_1_alg».proof.Proof.KRunBody1
import proofs.«155261_j31147102831210_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched

No host operation writes an argument and no region writes one (the projection kernel reads the first three through input
windows, which the pipeline leaves as entered; the other two are no window of it; none is a window of the combining
kernel), so the contents at an argument's buffer walk back through the boundaries to the launch memory. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl

/-! ## The thread state between segments -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it owes,
    which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along; it ends with those
    references at the contents after its operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The regions as segments -/

-- unifying a library lemma stated over the pinned configuration with the printed one takes unfolding plain definitions in a
-- metavariable's type
set_option backward.isDefEq.respectTransparency.types false in
/-- The projection kernel's region: entered from every unscoped buffer at `W0`, left at `W1`. Its arrays split out of the
    unscoped buffers at entry and are put back at the exit contents; the generator register goes into the pipeline's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one takes unfolding plain definitions in a
-- metavariable's type
set_option backward.isDefEq.respectTransparency.types false in
/-- The combining kernel's region: entered from every unscoped buffer at `W2`, left at `W3`, as the projection kernel's. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
/-- The program is the run of the segments: it is the chain of its items, which the segments' run unfolds to. -/
theorem main_run (c : Dev nD) : main (F := F) c = Pipeline.Seg.run (segs m ρ) := (main_chain c).trans (by chain_rfl)

-- the launch theorem's implicit arguments are found by unifying its conclusion with this one, which takes unfolding plain
-- definitions in a metavariable's type
set_option backward.isDefEq.respectTransparency.types false in
/-- From any memory with zero counters, every weakly fair execution of the program on the TensorCores terminates, nothing
    faulting, and in every final state each core's unscoped buffers hold the last boundary's contents `W3`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h => h)

end Cert.Kernel.Hand

end
-- ==== Proof.KRunClaims.lean ====
/-
  The run, read at the buffers the claims name.

  `run_all` says that in every final state each core's unscoped buffers hold the last boundary's contents `W3`. The
  argument arrays and the result array are unscoped buffers, and `W3` at an argument is the launch memory
  (`W3_main_argK`). So: every argument array ends as launched (`frame`), and the result array ends at `W3`'s contents
  for it while every argument array ends as launched (`run_out`).
-/
import proofs.«155261_j31147102831210_1_alg».proof.Proof.KRunMain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- From any memory with zero counters, every weakly fair execution of the program on the TensorCores terminates, nothing
    faulting, and every final state has each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c)⟩) (run_all m ρ)

/-- The same run, read also at the result array: it ends holding the last boundary's contents for it. -/
theorem run_out : θ_run defs (onTc (τ := τ) (main (F := F))) ⟨m, fun _ => 0, ρ⟩ (fun r => ∀ c : Dev nD,
      r.2.mem ((c.tc : Thread nD τ).loc main_v40) = W3 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v40 (by decide)),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c)⟩) (run_all m ρ)

end Cert.Kernel.Hand

end
-- ==== Proof.LibMatmulRows.lean ====
/-
  A plain matrix product into a zero accumulator, read at a row and a column.

  For dimension numbers that contract the left operand's axis 1 against the right operand's axis 0, with no batch axis,
  the product of an [M, K] and a [K, N] array into the zero splat reads at (p, c) as the sum over a < K of
  l(p, a) · r(a, c): the product's sum over the contraction shape's indices, re-indexed through that shape's one axis.
-/
import Idealize.ShloMosaic.PureOps.Ideal.Laws
import Idealize.ShloMosaic.Lib.ValueIdx

noncomputable section

namespace Cert.LibMatmulRows

open Idealize.ShloMosaic Idealize.ShloMosaic.ValueIdx

/-- The product into the zero accumulator at (p, c), from the four facts that say which operand index the dimension
    numbers read at an output index and a contraction index. -/
theorem matmul_zero_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ a : Fin K, l (ix2 p a) * r (ix2 a c) := by
  show FloatOps.matmul d prec l r (constant ⟨2, ![M, N]⟩ .f32 0x00000000#32) (ix2 p c) = _
  rw [Ideal.matmul_constant_zero_apply, ← Equiv.sum_comp (contrEquiv1 d K hr hs).symm]
  refine Finset.sum_congr rfl fun a _ => ?_
  have hk := contrEquiv1_symm_val d K hr hs a
  have el : d.lhsIdx (ix2 p c) ((contrEquiv1 d K hr hs).symm a) = ix2 p a := funext fun x => Fin.ext (by
    match x with
    | ⟨0, _⟩ => exact hl0 _ _
    | ⟨1, _⟩ => exact (hl1 _ _).trans hk)
  have er : d.rhsIdx (ix2 p c) ((contrEquiv1 d K hr hs).symm a) = ix2 a c := funext fun x => Fin.ext (by
    match x with
    | ⟨0, _⟩ => exact (hr0 _ _).trans hk
    | ⟨1, _⟩ => exact hr1 _ _)
  rw [el, er]

end Cert.LibMatmulRows

end
-- ==== Proof.LibKeepdims.lean ====
/-
  Two layout operations read at an index given by coordinates, for the column that a sum over the LAST axis with
  `keepdims=True` leaves: a vector `[a]` re-shaped to a column `[a, 1]`, and a column `[a, 1]` broadcast along its
  unit axis to a matrix `[a, b]`. (The row forms `[a] → [1, a]` and `[1, b] → [a, b]` are in the library's
  Lib/ValueLayout.lean; these are their transposes, for any extents and any element type.)
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to a column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is kept
    (also when `a = 1`, where it can only be `0`), the coordinate on the unit axis is `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Pay.lean ====
/-
  The two kernel bodies' stored values, read at an entry, on the extended reals.

  The projection body stores, at (p, q) of its block, `Σₖ x(p,k)·w(q,k) + b(q)`: the roundings to the narrow format are
  the identity, the transposed weight block read at (k, q) is `w(q, k)`, the product accumulates into zero, and the
  bias vector made a row and spread down the block reads `b(q)`.

  The combining body stores, at (p, q), `max ((a·s₁ + h·s₂ + n·s₃)·½) 0` where `h`, `a`, `n` are the entries (p, q) of its
  three full blocks and `s₁, s₂, s₃` the entries of row p of the three columns it loads from the scale block.
-/
import proofs.«155261_j31147102831210_1_alg».proof.Proof.Gen.KernelIdeal.Skeleton
import proofs.«155261_j31147102831210_1_alg».proof.Proof.LibMatmulRows
import proofs.«155261_j31147102831210_1_alg».proof.Proof.LibKeepdims
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.ValueIdx Cert.KernelIdeal
open Cert.KernelIdeal.Facts₀ Cert.KernelIdeal.Facts

local notation "dK" => dot_S10000x128_S128x128_S10000x128_1_0_0_1_n_n

/-- Which operand entries the block product reads. -/
theorem dK_l0 (i : S10000x128.Idx) (q : (dK).contr.Idx) : ((dK).lhsIdx i q 0).val = (i 0).val := by
  unfold DotDims.lhsIdx
  rw [dif_neg (show ¬(0 : Fin S10000x128.rank) ∈ (dK).lhsBatch by decide),
    dif_pos (show (0 : Fin S10000x128.rank) ∈ (dK).lhsNonContracting by decide)]
  rfl
theorem dK_l1 (i : S10000x128.Idx) (q : (dK).contr.Idx) : ((dK).lhsIdx i q 1).val = (q ⟨0, by decide⟩).val :=
  (dK).lhsIdx_val_of_single rfl i q
theorem dK_r0 (i : S10000x128.Idx) (q : (dK).contr.Idx) : ((dK).rhsIdx i q 0).val = (q ⟨0, by decide⟩).val :=
  (dK).rhsIdx_val_of_single rfl i q
theorem dK_r1 (i : S10000x128.Idx) (q : (dK).contr.Idx) : ((dK).rhsIdx i q 1).val = (i 1).val := by
  unfold DotDims.rhsIdx
  rw [dif_neg (show ¬(1 : Fin S128x128.rank) ∈ (dK).rhsBatch by decide),
    dif_pos (show (1 : Fin S128x128.rank) ∈ (dK).rhsNonContracting by decide)]
  rfl

/-- The transposed weight block at (k, q) is the block at (q, k). -/
theorem wT_apply (w : S128x128.Idx → EReal) (k q : Fin 128) :
    transpose S128x128 [1, 0] w transposes_S128x128_p1_0_S128x128 (ix2 k q) = w (ix2 q k) :=
  transpose_apply [1, 0] w transposes_S128x128_p1_0_S128x128 (ix2 k q) (ix2 q k) (fun b => match b with
    | ⟨0, _⟩ => rfl
    | ⟨1, _⟩ => rfl)

/-- The bias vector made a row and spread down the block reads, at (p, q), the bias of feature q. -/
theorem bias_apply {F : FTy → Type} [FloatOps F] (b : Vec F S128 .f32) (p : Fin 10000) (q : Fin 128) :
    (broadcastTo S10000x128 (shapeCast S1x128 b shapeCasts_S128_S1x128 : FVec F S1x128 .f32) broadcasts_S1x128_S10000x128
      : FVec F S10000x128 .f32) (ix2 p q) = b (ix1 q) := by
  rw [broadcastTo_apply _ broadcasts_S1x128_S10000x128 (ix2 p q) (ix2 (0 : Fin 1) q) (fun ax => match ax with
    | ⟨0, _⟩ => by show (0 : ℕ) = if (1 : ℕ) = 1 then 0 else p.val; rw [if_pos rfl]
    | ⟨1, _⟩ => by show q.val = if (128 : ℕ) = 1 then 0 else q.val; rw [if_neg (by decide)])]
  exact shapeCast_apply b shapeCasts_S128_S1x128 _ _ (by
    rw [Shape.rowMajor_val_two, Shape.rowMajor_val_one]
    show q.val = 0 * 128 + q.val
    omega)

/-- THE PROJECTION BODY'S STORE at (p, q). -/
theorem pay_H (v0 : Vec Ideal S10000x128 .f32) (v2 : Vec Ideal S128x128 .f32) (v6 : Vec Ideal S128 .f32)
    (p : Fin 10000) (q : Fin 128) :
    Gen.k0_pay1 (F := Ideal) v0 v2 v6 (ix2 p q) = (∑ k : Fin 128, v0 (ix2 p k) * v2 (ix2 q k)) + v6 (ix1 q) := by
  unfold Gen.k0_pay1
  show FloatOps.addf (matmul dK none (truncf .bf16 (v0 : FVec Ideal S10000x128 .f32) bitsLt_bf16_f32)
      (transpose S128x128 [1, 0] (truncf .bf16 (v2 : FVec Ideal S128x128 .f32) bitsLt_bf16_f32) transposes_S128x128_p1_0_S128x128)
      (constant S10000x128 .f32 0x00000000#32) (ix2 p q))
    ((broadcastTo S10000x128 (shapeCast S1x128 v6 shapeCasts_S128_S1x128 : FVec Ideal S1x128 .f32) broadcasts_S1x128_S10000x128
      : FVec Ideal S10000x128 .f32) (ix2 p q)) = _
  rw [Cert.LibMatmulRows.matmul_zero_ix2 dK rfl rfl dK_l0 dK_l1 dK_r0 dK_r1, bias_apply, Ideal.addf_def]
  refine congrArg (· + v6 (ix1 q)) (Finset.sum_congr rfl fun k _ => ?_)
  rw [wT_apply]
  rfl

/-- THE COMBINING BODY'S STORE at (p, q). -/
theorem pay_fuse (v0 v2 v4 : Vec Ideal S5000x128 .f32) (v6 v8 v10 : Vec Ideal S5000x1 .f32) (p : Fin 5000) (q : Fin 128) :
    Gen.k1_pay1 (F := Ideal) v0 v2 v4 v6 v8 v10 (ix2 p q)
      = max ((v2 (ix2 p q) * v6 (ix2 p (0 : Fin 1)) + v0 (ix2 p q) * v8 (ix2 p (0 : Fin 1))
              + v4 (ix2 p q) * v10 (ix2 p (0 : Fin 1))) * Ideal.ofBits .f32 0x3F000000#32)
          (Ideal.ofBits .f32 0x00000000#32) := by
  unfold Gen.k1_pay1
  simp only [shapeCast_self]
  show FloatOps.maximumf (FloatOps.mulf (FloatOps.addf (FloatOps.addf
      (FloatOps.mulf (v2 (ix2 p q)) ((broadcastTo S5000x128 v6 broadcasts_S5000x1_S5000x128 : FVec Ideal S5000x128 .f32) (ix2 p q)))
      (FloatOps.mulf (v0 (ix2 p q)) ((broadcastTo S5000x128 v8 broadcasts_S5000x1_S5000x128 : FVec Ideal S5000x128 .f32) (ix2 p q))))
      (FloatOps.mulf (v4 (ix2 p q)) ((broadcastTo S5000x128 v10 broadcasts_S5000x1_S5000x128 : FVec Ideal S5000x128 .f32) (ix2 p q))))
      (Scalar.ofBits (F := Ideal) .f32 0x3F000000#32)) (Scalar.ofBits (F := Ideal) .f32 0x00000000#32) = _
  rw [Cert.LibKeepdims.broadcastTo_a1_ab_apply v6, Cert.LibKeepdims.broadcastTo_a1_ab_apply v8,
    Cert.LibKeepdims.broadcastTo_a1_ab_apply v10]
  rfl

end Cert.KernelIdeal.Hand

end
-- ==== Proof.ArrH.lean ====
/-
  The projection kernel's output array after its run, as one function of its three input arrays.

  Grid point t stages rows 10000·t … 10000·t + 9999 of `X` (all 128 columns), the whole of `W` and of `b`, and writes back
  the same rows of the output. Its store at (p, q) of the block is `Σₖ x(p,k)·w(q,k) + b(q)`, which is the whole-array
  function `H(i) = Σₖ X(i₀,k)·W(i₁,k) + b(i₁)` read at row 10000·t + p: the input block moves with the output block and
  the other two windows never move. Every row lies in exactly one block (row r in block r / 10000), so the array ends
  holding `H`.
-/
import proofs.«155261_j31147102831210_1_alg».proof.Proof.RunData
import proofs.«155261_j31147102831210_1_alg».proof.Proof.Pay
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

/-- THE PROJECTION as a function of the whole arrays: `H(i) = Σₖ X(i₀,k)·W(i₁,k) + b(i₁)`. -/
def Hfun (x0 : S100000x128.Idx → EReal) (x1 : S128x128.Idx → EReal) (x2 : S128.Idx → EReal) : S100000x128.Idx → EReal :=
  fun i => (∑ k : Fin 128, x0 (ix2 (⟨(i 0).val, (i 0).isLt⟩ : Fin 100000) k) * x1 (ix2 (⟨(i 1).val, (i 1).isLt⟩ : Fin 128) k))
    + x2 (ix1 (⟨(i 1).val, (i 1).isLt⟩ : Fin 128))

theorem Hfun_apply (x0 : S100000x128.Idx → EReal) (x1 : S128x128.Idx → EReal) (x2 : S128.Idx → EReal)
    (p : Fin 100000) (q : Fin 128) :
    Hfun x0 x1 x2 (ix2 p q) = (∑ k : Fin 128, x0 (ix2 p k) * x1 (ix2 q k)) + x2 (ix1 q) := rfl

section

variable (V : (c : Dev nD) → (b : Ref sig .tc) → Buf (Elt Ideal) ((c : Thread nD τ).loc b))

theorem hz0 : (![0, 0] : Fin 2 → Nat) = fun _ => 0 := funext fun a => by fin_cases a <;> rfl
theorem hz0' : (![0] : Fin 1 → Nat) = fun _ => 0 := funext fun a => by fin_cases a; rfl

/-- The printed index maps, decided over the ten points: the `X` block moves with the output block along the rows,
    nothing else moves. -/
theorem idx_facts0 : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 1) = 0 ∧ win0_3.index t (0 : Fin 2) < 10 :=
  (by decide +kernel : ∀ t : Fin grid0.N, _)

/-- Every row block is some point's. -/
theorem idx_onto0 : ∀ q0 : Fin 10, ∃ t : Fin cfg0.N, win0_3.index t = ![q0.val, 0] :=
  (by decide +kernel : ∀ q0 : Fin 10, ∃ t : Fin grid0.N, win0_3.index t = ![q0.val, 0])

/-- WHAT POINT t WRITES BACK is block t of `H` of the arrays as the region finds them. -/
theorem flushed0_eq (c : Dev nD) (t : Fin cfg0.N) :
    (dat0 V c).flushed 3 t = ((cfg0.win 3).blk t).view.read (Elt Ideal)
      (Hfun (V c main_arg0) (V c main_arg1) (V c main_arg2)) := by
  show (cfg0.win 3).cut (grid0.coords t) ((dat0 V c).after 3 t) = _
  rw [after0_3]
  unfold out0_3
  rw [View.canon_unit_zero hz0]
  simp only [View.ld_unit_zero (S := S10000x128) hz0, View.ld_unit_zero (S := S128x128) hz0,
    View.ld_unit_zero (S := S128) hz0']
  obtain ⟨e0, e1, e2, e3, e4, e5, e6⟩ := idx_facts0 t
  funext j
  obtain ⟨p, q, rfl⟩ : ∃ (p : Fin 10000) (q : Fin 128), j = ix2 p q := ⟨j 0, j 1, eq_ix2 j⟩
  show k0_pay1 (F := Ideal) (iblk0 V c 0 t) (iblk0 V c 1 t) (iblk0 V c 2 t) (ix2 p q)
    = Hfun (V c main_arg0) (V c main_arg1) (V c main_arg2) (((cfg0.win 3).blk t).view.emb (ix2 p q))
  refine (pay_H (iblk0 V c 0 t) (iblk0 V c 1 t) (iblk0 V c 2 t) p q).trans ?_
  unfold Hfun
  have hx : ∀ k : Fin 128, iblk0 V c 0 t (ix2 p k)
      = V c main_arg0 (ix2 (⟨((((cfg0.win 3).blk t).view.emb (ix2 p q)) 0).val, ((((cfg0.win 3).blk t).view.emb (ix2 p q)) 0).isLt⟩ : Fin 100000) k) := by
    intro k
    show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = win0_3.index t (0 : Fin 2) * 10000 + 1 * p.val; omega
    | ⟨1, _⟩ => show win0_0.index t (1 : Fin 2) * 128 + 1 * k.val = k.val; omega
  have hw : ∀ k : Fin 128, iblk0 V c 1 t (ix2 q k)
      = V c main_arg1 (ix2 (⟨((((cfg0.win 3).blk t).view.emb (ix2 p q)) 1).val, ((((cfg0.win 3).blk t).view.emb (ix2 p q)) 1).isLt⟩ : Fin 128) k) := by
    intro k
    show V c main_arg1 (((cfg0.win 1).blk t).view.emb (ix2 q k)) = _
    refine congrArg (V c main_arg1) (funext fun a => Fin.ext ?_)
    match a with
    | ⟨0, _⟩ => show win0_1.index t (0 : Fin 2) * 128 + 1 * q.val = win0_3.index t (1 : Fin 2) * 128 + 1 * q.val; omega
    | ⟨1, _⟩ => show win0_1.index t (1 : Fin 2) * 128 + 1 * k.val = k.val; omega
  have hb : iblk0 V c 2 t (ix1 q)
      = V c main_arg2 (ix1 (⟨((((cfg0.win 3).blk t).view.emb (ix2 p q)) 1).val, ((((cfg0.win 3).blk t).view.emb (ix2 p q)) 1).isLt⟩ : Fin 128)) := by
    show V c main_arg2 (((cfg0.win 2).blk t).view.emb (ix1 q)) = _
    refine congrArg (V c main_arg2) (funext fun a => Fin.ext ?_)
    match a with
    | ⟨0, _⟩ => show win0_2.index t (0 : Fin 1) * 128 + 1 * q.val = win0_3.index t (1 : Fin 2) * 128 + 1 * q.val; omega
  rw [hb]
  exact congrArg (· + _) (Finset.sum_congr rfl fun k _ => by rw [hx k, hw k])

/-- An index of the array is in point t's block iff each coordinate is in the block's range on its axis. -/
theorem mem_blk0 (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v0).slice (win0_3.rect t)).set ↔ _
  rw [View.set_slice_whole, Rect.mem_set_unit]
  exact Iff.rfl

/-- Every index of the array is in some point's block: row r in block r / 10000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto0 ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- THE ARRAY after the run is `H` of the arrays as the region finds them. -/
theorem final0 (c : Dev nD) :
    (dat0 V c).arrAt 3 cfg0.N = Hfun (V c main_arg0) (V c main_arg1) (V c main_arg2) :=
  (dat0 V c).arrAt_eq_of_cover 3 _ (fun t _ => flushed0_eq V c t) cover0

end

end Cert.KernelIdeal.Hand

end
-- ==== Proof.ArrFuse.lean ====
/-
  The combining kernel's output array after its run, as one function of its four input arrays.

  Grid point t stages rows 5000·t … 5000·t + 4999 of the projection, of the two row sums and of the scale array (all
  their columns) and writes back the same rows of the output. Its store at (p, q) of the block is
  `max ((a·s₀ + h·s₁ + n·s₂)·½) 0` over the blocks' entries (p, q) and the scale block's row p, which is the whole-array
  function `E` below read at row 5000·t + p: all five blocks move together. Every row lies in exactly one block
  (row r in block r / 5000), so the array ends holding `E`.
-/
import proofs.«155261_j31147102831210_1_alg».proof.Proof.RunData
import proofs.«155261_j31147102831210_1_alg».proof.Proof.Pay
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

/-- THE COMBINATION as a function of the whole arrays: at entry i of row r,
    `max ((a(i)·s(r,0) + h(i)·s(r,1) + n(i)·s(r,2))·½) 0`. -/
def Efun (h a n : S100000x128.Idx → EReal) (s : S100000x3.Idx → EReal) : S100000x128.Idx → EReal :=
  fun i => max ((a i * s (ix2 (⟨(i 0).val, (i 0).isLt⟩ : Fin 100000) (0 : Fin 3))
      + h i * s (ix2 (⟨(i 0).val, (i 0).isLt⟩ : Fin 100000) (1 : Fin 3))
      + n i * s (ix2 (⟨(i 0).val, (i 0).isLt⟩ : Fin 100000) (2 : Fin 3))) * Ideal.ofBits .f32 0x3F000000#32)
    (Ideal.ofBits .f32 0x00000000#32)

theorem Efun_apply (h a n : S100000x128.Idx → EReal) (s : S100000x3.Idx → EReal) (p : Fin 100000) (q : Fin 128) :
    Efun h a n s (ix2 p q) = max ((a (ix2 p q) * s (ix2 p (0 : Fin 3)) + h (ix2 p q) * s (ix2 p (1 : Fin 3))
      + n (ix2 p q) * s (ix2 p (2 : Fin 3))) * Ideal.ofBits .f32 0x3F000000#32) (Ideal.ofBits .f32 0x00000000#32) := rfl

section

variable (V : (c : Dev nD) → (b : Ref sig .tc) → Buf (Elt Ideal) ((c : Thread nD τ).loc b))

theorem hz1 : (![0, 0] : Fin 2 → Nat) = fun _ => 0 := funext fun a => by fin_cases a <;> rfl

/-- The printed index maps, decided over the twenty points: the four input blocks move with the output block along
    the rows, and no block moves along the columns. -/
theorem idx_facts1 : ∀ t : Fin cfg1.N, win1_0.index t (0 : Fin 2) = win1_4.index t (0 : Fin 2)
    ∧ win1_1.index t (0 : Fin 2) = win1_4.index t (0 : Fin 2)
    ∧ win1_2.index t (0 : Fin 2) = win1_4.index t (0 : Fin 2)
    ∧ win1_3.index t (0 : Fin 2) = win1_4.index t (0 : Fin 2)
    ∧ win1_0.index t (1 : Fin 2) = 0 ∧ win1_1.index t (1 : Fin 2) = 0 ∧ win1_2.index t (1 : Fin 2) = 0
    ∧ win1_3.index t (1 : Fin 2) = 0 ∧ win1_4.index t (1 : Fin 2) = 0 ∧ win1_4.index t (0 : Fin 2) < 20 :=
  (by decide +kernel : ∀ t : Fin grid1.N, _)

/-- Every row block is some point's. -/
theorem idx_onto1 : ∀ q0 : Fin 20, ∃ t : Fin cfg1.N, win1_4.index t = ![q0.val, 0] :=
  (by decide +kernel : ∀ q0 : Fin 20, ∃ t : Fin grid1.N, win1_4.index t = ![q0.val, 0])

/-- WHAT POINT t WRITES BACK is block t of `E` of the arrays as the region finds them. -/
theorem flushed1_eq (c : Dev nD) (t : Fin cfg1.N) :
    (dat1 V c).flushed 4 t = ((cfg1.win 4).blk t).view.read (Elt Ideal)
      (Efun (V c main_v0) (V c main_v31) (V c main_v34) (V c main_v39)) := by
  show (cfg1.win 4).cut (grid1.coords t) ((dat1 V c).after 4 t) = _
  rw [after1_4]
  unfold out1_4
  rw [View.canon_unit_zero hz1]
  simp only [View.ld_unit_zero (S := S5000x128) hz1]
  obtain ⟨e0, e1, e2, e3, f0, f1, f2, f3, f4, f5⟩ := idx_facts1 t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (View.ld (iblk1 V c 3 t) r1_c0)
      (View.ld (iblk1 V c 3 t) r1_c1) (View.ld (iblk1 V c 3 t) r1_c2) (ix2 p q)
    = Efun (V c main_v0) (V c main_v31) (V c main_v34) (V c main_v39) (((cfg1.win 4).blk t).view.emb (ix2 p q))
  refine (pay_fuse (iblk1 V c 0 t) (iblk1 V c 1 t) (iblk1 V c 2 t) (View.ld (iblk1 V c 3 t) r1_c0)
      (View.ld (iblk1 V c 3 t) r1_c1) (View.ld (iblk1 V c 3 t) r1_c2) p q).trans ?_
  unfold Efun
  have h0 : iblk1 V c 0 t (ix2 p q) = V c main_v0 (((cfg1.win 4).blk t).view.emb (ix2 p q)) := by
    show V c main_v0 (((cfg1.win 0).blk t).view.emb (ix2 p q)) = _
    refine congrArg (V c main_v0) (funext fun a => Fin.ext ?_)
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * q.val = win1_4.index t (1 : Fin 2) * 128 + 1 * q.val; omega
  have h1 : iblk1 V c 1 t (ix2 p q) = V c main_v31 (((cfg1.win 4).blk t).view.emb (ix2 p q)) := by
    show V c main_v31 (((cfg1.win 1).blk t).view.emb (ix2 p q)) = _
    refine congrArg (V c main_v31) (funext fun a => Fin.ext ?_)
    match a with
    | ⟨0, _⟩ => show win1_1.index t (0 : Fin 2) * 5000 + 1 * p.val = win1_4.index t (0 : Fin 2) * 5000 + 1 * p.val; omega
    | ⟨1, _⟩ => show win1_1.index t (1 : Fin 2) * 128 + 1 * q.val = win1_4.index t (1 : Fin 2) * 128 + 1 * q.val; omega
  have h2 : iblk1 V c 2 t (ix2 p q) = V c main_v34 (((cfg1.win 4).blk t).view.emb (ix2 p q)) := by
    show V c main_v34 (((cfg1.win 2).blk t).view.emb (ix2 p q)) = _
    refine congrArg (V c main_v34) (funext fun a => Fin.ext ?_)
    match a with
    | ⟨0, _⟩ => show win1_2.index t (0 : Fin 2) * 5000 + 1 * p.val = win1_4.index t (0 : Fin 2) * 5000 + 1 * p.val; omega
    | ⟨1, _⟩ => show win1_2.index t (1 : Fin 2) * 128 + 1 * q.val = win1_4.index t (1 : Fin 2) * 128 + 1 * q.val; omega
  have hs0 : View.ld (iblk1 V c 3 t) r1_c0 (ix2 p (0 : Fin 1))
      = V c main_v39 (ix2 (⟨((((cfg1.win 4).blk t).view.emb (ix2 p q)) 0).val, ((((cfg1.win 4).blk t).view.emb (ix2 p q)) 0).isLt⟩ : Fin 100000) (0 : Fin 3)) := by
    show V c main_v39 (((cfg1.win 3).blk t).view.emb (r1_c0.emb (ix2 p (0 : Fin 1)))) = _
    refine congrArg (V c main_v39) (funext fun a => Fin.ext ?_)
    match a with
    | ⟨0, _⟩ => show win1_3.index t (0 : Fin 2) * 5000 + 1 * (0 + 1 * p.val) = win1_4.index t (0 : Fin 2) * 5000 + 1 * p.val; omega
    | ⟨1, _⟩ => show win1_3.index t (1 : Fin 2) * 3 + 1 * (0 + 1 * 0) = 0; omega
  have hs1 : View.ld (iblk1 V c 3 t) r1_c1 (ix2 p (0 : Fin 1))
      = V c main_v39 (ix2 (⟨((((cfg1.win 4).blk t).view.emb (ix2 p q)) 0).val, ((((cfg1.win 4).blk t).view.emb (ix2 p q)) 0).isLt⟩ : Fin 100000) (1 : Fin 3)) := by
    show V c main_v39 (((cfg1.win 3).blk t).view.emb (r1_c1.emb (ix2 p (0 : Fin 1)))) = _
    refine congrArg (V c main_v39) (funext fun a => Fin.ext ?_)
    match a with
    | ⟨0, _⟩ => show win1_3.index t (0 : Fin 2) * 5000 + 1 * (0 + 1 * p.val) = win1_4.index t (0 : Fin 2) * 5000 + 1 * p.val; omega
    | ⟨1, _⟩ => show win1_3.index t (1 : Fin 2) * 3 + 1 * (1 + 1 * 0) = 1; omega
  have hs2 : View.ld (iblk1 V c 3 t) r1_c2 (ix2 p (0 : Fin 1))
      = V c main_v39 (ix2 (⟨((((cfg1.win 4).blk t).view.emb (ix2 p q)) 0).val, ((((cfg1.win 4).blk t).view.emb (ix2 p q)) 0).isLt⟩ : Fin 100000) (2 : Fin 3)) := by
    show V c main_v39 (((cfg1.win 3).blk t).view.emb (r1_c2.emb (ix2 p (0 : Fin 1)))) = _
    refine congrArg (V c main_v39) (funext fun a => Fin.ext ?_)
    match a with
    | ⟨0, _⟩ => show win1_3.index t (0 : Fin 2) * 5000 + 1 * (0 + 1 * p.val) = win1_4.index t (0 : Fin 2) * 5000 + 1 * p.val; omega
    | ⟨1, _⟩ => show win1_3.index t (1 : Fin 2) * 3 + 1 * (2 + 1 * 0) = 2; omega
  rw [h0, h1, h2, hs0, hs1, hs2]

/-- An index of the array is in point t's block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v40).slice (win1_4.rect t)).set ↔ _
  rw [View.set_slice_whole, Rect.mem_set_unit]
  exact Iff.rfl

/-- Every index of the array is in some point's block: row r in block r / 5000. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := idx_onto1 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- THE ARRAY after the run is `E` of the arrays as the region finds them. -/
theorem final1 (c : Dev nD) :
    (dat1 V c).arrAt 4 cfg1.N = Efun (V c main_v0) (V c main_v31) (V c main_v34) (V c main_v39) :=
  (dat1 V c).arrAt_eq_of_cover 4 _ (fun t _ => flushed1_eq V c t) cover1

end

end Cert.KernelIdeal.Hand

end
-- ==== Proof.Chain.lean ====
/-
  The host computation between the two kernels, as functions of the projection `H` and the two edge arrays.

  `deg` is the in-degree (ones summed into the destination nodes), `isq = 1/√(deg + 1)`, `invd = 1/max(deg, 1)`;
  `rows H src` gathers the projection's rows along the edges' sources (a negative id is first shifted by the number of
  nodes); `agg` sums the gathered rows, each scaled by its source's `isq`, into the destination rows, `nbr` sums them
  unscaled; `scale` stacks `isq`, `isq·isq` and `invd` as the three columns of one array. Both programs apply exactly
  these operations, so neither the gathers nor the row sums are ever opened: only the degree (a nonnegative real) and
  the three columns of `scale` are read.
-/
import proofs.«155261_j31147102831210_1_alg».proof.Proof.Gen.KernelIdeal
import Idealize.ShloMosaic.PureOps.Ideal

noncomputable section

namespace Cert.KernelIdeal.Hand

open Idealize.ShloMosaic Cert.KernelIdeal Cert.KernelIdeal.Facts₀ Cert.KernelIdeal.Facts

variable {F : FTy → Type} [FloatOps F]

/-- The edge ids as a column of index words, a negative id shifted by the number of nodes. -/
def ids (x3 : (⟨S1600000, .i32⟩ : BufTy).Contents (Elt F)) : (⟨S1600000x1, .i32⟩ : BufTy).Contents (Elt F) :=
  broadcastInDim S1600000x1 ![0] bcast_S1600000_S1600000x1_0
    (select (cmpi .slt x3 (broadcastInDim S1600000 ![] bcast_S_S1600000 (constantI S_ 32 0#32)))
      (addi x3 (broadcastInDim S1600000 ![] bcast_S_S1600000 (constantI S_ 32 100000#32))) x3)

/-- The constant one, per node. -/
def ones : (⟨S100000, .f32⟩ : BufTy).Contents (Elt F) :=
  broadcastInDim S100000 ![] bcast_S_S100000 (constant S_ .f32 0x3F800000#32)

/-- The in-degree: a one added into its destination node for every edge. -/
def deg (x4 : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 x4)
    (broadcastInDim S1600000 ![] bcast_S_S1600000 (constant S_ .f32 0x3F800000#32))

/-- `1/√(deg + 1)`. -/
def isq (x4 : (⟨S1600000, .i32⟩ : BufTy).Contents (Elt F)) : (⟨S100000, .f32⟩ : BufTy).Contents (Elt F) :=
  Host.rsqrt (addf (deg x4) ones)

/-- `1/max(deg, 1)`. -/
def invd (x4 : (⟨S1600000, .i32⟩ : BufTy).Contents (Elt F)) : (⟨S100000, .f32⟩ : BufTy).Contents (Elt F) :=
  Host.divf ones (maximumf (deg x4) ones)

/-- The projection's rows gathered along the edges' sources. -/
def rows (H : (⟨S100000x128, .f32⟩ : BufTy).Contents (Elt F)) (x3 : (⟨S1600000, .i32⟩ : BufTy).Contents (Elt F)) :
    (⟨S1600000x128, .f32⟩ : BufTy).Contents (Elt F) :=
  Host.gather gather_S100000x128_S1600000x1_S1600000x128_1_0_n_n_0_1_1128 H (ids x3)

/-- The gathered rows, each scaled by its source's `isq`, summed into the destination rows. -/
def agg (H : (⟨S100000x128, .f32⟩ : BufTy).Contents (Elt F)) (x3 x4 : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 x4)
    (mulf (rows H x3)
      (broadcastInDim S1600000x128 ![0, 1] bcast_S1600000x1_S1600000x128_0_1
        (broadcastInDim S1600000x1 ![0] bcast_S1600000_S1600000x1_0
          (Host.gather gather_S100000_S1600000x1_S1600000_n_0_n_n_0_1_1 (isq x4) (ids x3)))))

/-- The gathered rows summed into the destination rows. -/
def nbr (H : (⟨S100000x128, .f32⟩ : BufTy).Contents (Elt F)) (x3 x4 : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 x4)
    (rows H x3)

/-- The three per-node scales as the columns of one array: `isq`, `isq·isq`, `invd`. -/
def scale (x4 : (⟨S1600000, .i32⟩ : BufTy).Contents (Elt F)) : (⟨S100000x3, .f32⟩ : BufTy).Contents (Elt F) :=
  concatenate S100000x3 1
    [⟨S100000x1, broadcastInDim S100000x1 ![0] bcast_S100000_S100000x1_0 (isq x4)⟩,
     ⟨S100000x1, broadcastInDim S100000x1 ![0] bcast_S100000_S100000x1_0 (mulf (isq x4) (isq x4))⟩,
     ⟨S100000x1, broadcastInDim S100000x1 ![0] bcast_S100000_S100000x1_0 (invd x4)⟩]
    concatenates_S100000x1_S100000x1_S100000x1_S100000x3_d1

end Cert.KernelIdeal.Hand

end
-- ==== Proof.LibNary.lean ====
/-
  A host operation with three operands, read at its result.

  An operation whose operands are a literal family of three references returns its function of the three buffers'
  contents, each taken at its own reference. (Stated with the contents spelt out one by one, so that a following
  rewriting of each operand's contents finds it at a literal reference rather than under the family's index.)
-/
import Idealize.ShloMosaic.Lib.StableHlo.Run

noncomputable section

namespace Cert.LibNary

open Idealize.ShloMosaic Idealize.ShloMosaic.TcCoe Idealize.SL.Sem Idealize.ShloMosaic.StableHlo

variable {sig : RefSig} {τ : Topo} {Val : EltTy → Type} {x a b y : Ref sig .tc}

/-- The result of a three-operand operation: its function at the three operands' contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.LibNary

end
-- ==== Proof.HostVals.lean ====
/-
  What the combining kernel is entered with: the buffers after the host stretch.

  The host stretch does not write the projection's buffer, and leaves in the three buffers the combining kernel also
  reads the normalised row sum, the plain row sum and the scale array of the host computation — the functions `agg`,
  `nbr` and `scale` at the projection as the first kernel left it and the two edge arrays.
-/
import proofs.«155261_j31147102831210_1_alg».proof.Proof.RunData
import proofs.«155261_j31147102831210_1_alg».proof.Proof.Chain
import proofs.«155261_j31147102831210_1_alg».proof.Proof.LibNary
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal

variable {F : FTy → Type} [FloatOps F]
variable (m : (ℓ : Loc nD τ sig) → Buf (Elt F) ℓ) (ρ : Dev nD → PrngReg)

/-- The normalised row sum after the host stretch. -/
theorem W2_agg (c : Dev nD) :
    W2 m ρ c (Proc.devRef .tc main_v31)
      = agg (F := F) (W1 m ρ c (Proc.devRef .tc main_v0)) (W1 m ρ c (Proc.devRef .tc main_arg3)) (W1 m ρ c (Proc.devRef .tc main_arg4)) := by
  show StableHlo.after Gen.hostOps1 (W1 m ρ c) (Proc.devRef .tc main_v31) = _
  after_results_simp
  rfl

/-- The plain row sum after the host stretch. -/
theorem W2_nbr (c : Dev nD) :
    W2 m ρ c (Proc.devRef .tc main_v34)
      = nbr (F := F) (W1 m ρ c (Proc.devRef .tc main_v0)) (W1 m ρ c (Proc.devRef .tc main_arg3)) (W1 m ρ c (Proc.devRef .tc main_arg4)) := by
  show StableHlo.after Gen.hostOps1 (W1 m ρ c) (Proc.devRef .tc main_v34) = _
  after_results_simp
  rfl

/-- The three column buffers after the host stretch. -/
theorem W2_col0 (c : Dev nD) :
    W2 m ρ c (Proc.devRef .tc main_v36)
      = broadcastInDim S100000x1 ![0] Facts₀.bcast_S100000_S100000x1_0 (isq (F := F) (W1 m ρ c (Proc.devRef .tc main_arg4))) := by
  show StableHlo.after Gen.hostOps1 (W1 m ρ c) (Proc.devRef .tc main_v36) = _
  after_results_simp
  rfl
theorem W2_col1 (c : Dev nD) :
    W2 m ρ c (Proc.devRef .tc main_v37)
      = broadcastInDim S100000x1 ![0] Facts₀.bcast_S100000_S100000x1_0
          (mulf (isq (F := F) (W1 m ρ c (Proc.devRef .tc main_arg4))) (isq (F := F) (W1 m ρ c (Proc.devRef .tc main_arg4)))) := by
  show StableHlo.after Gen.hostOps1 (W1 m ρ c) (Proc.devRef .tc main_v37) = _
  after_results_simp
  rfl
theorem W2_col2 (c : Dev nD) :
    W2 m ρ c (Proc.devRef .tc main_v38)
      = broadcastInDim S100000x1 ![0] Facts₀.bcast_S100000_S100000x1_0 (invd (F := F) (W1 m ρ c (Proc.devRef .tc main_arg4))) := by
  show StableHlo.after Gen.hostOps1 (W1 m ρ c) (Proc.devRef .tc main_v38) = _
  after_results_simp
  rfl

/-- The scale buffer after the host stretch is the three column buffers side by side: the stacking operation comes
    last and writes none of them. -/
theorem W2_stack (c : Dev nD) :
    W2 m ρ c (Proc.devRef .tc main_v39)
      = concatenate S100000x3 1
          [⟨S100000x1, W2 m ρ c (Proc.devRef .tc main_v36)⟩, ⟨S100000x1, W2 m ρ c (Proc.devRef .tc main_v37)⟩,
           ⟨S100000x1, W2 m ρ c (Proc.devRef .tc main_v38)⟩]
          Facts₀.concatenates_S100000x1_S100000x1_S100000x1_S100000x3_d1 := by
  show StableHlo.after Gen.hostOps1 (W1 m ρ c) (Proc.devRef .tc main_v39)
    = concatenate S100000x3 1
        [⟨S100000x1, StableHlo.after Gen.hostOps1 (W1 m ρ c) (Proc.devRef .tc main_v36)⟩,
         ⟨S100000x1, StableHlo.after Gen.hostOps1 (W1 m ρ c) (Proc.devRef .tc main_v37)⟩,
         ⟨S100000x1, StableHlo.after Gen.hostOps1 (W1 m ρ c) (Proc.devRef .tc main_v38)⟩]
        Facts₀.concatenates_S100000x1_S100000x1_S100000x1_S100000x3_d1
  simp only [after_cons, after_nil]
  rw [Cert.LibNary.nary3_result]
  rw [nary_result_ne]; rotate_left; decide
  rw [nary_result_ne]; rotate_left; decide
  rw [nary_result_ne]; rotate_left; decide
  rfl

/-- The scale array after the host stretch. -/
theorem W2_scale (c : Dev nD) :
    W2 m ρ c (Proc.devRef .tc main_v39) = scale (F := F) (W1 m ρ c (Proc.devRef .tc main_arg4)) := by
  rw [W2_stack, W2_col0, W2_col1, W2_col2]
  rfl

/-- The projection's buffer is not written by the host stretch. -/
theorem W2_H (c : Dev nD) : W2 m ρ c (Proc.devRef .tc main_v0) = W1 m ρ c (Proc.devRef .tc main_v0) := by
  show StableHlo.after Gen.hostOps1 (W1 m ρ c) (Proc.devRef .tc main_v0) = _
  after_results_simp

end Cert.KernelIdeal.Hand

end
-- ==== Proof.LibScatterGather.lean ====
/-
  Row scatter-add and row gather, read at an index. A table of N rows of width C; E row numbers, held as an
  [E, 1] array of integer words; E update rows of width C.
  Scatter-add: update element (e, k') lands on table element (i, k) exactly when the signed reading of word e
  is i and k' = k, so table element (i, k) receives the sum over those e whose word reads i of update (e, k).
  Gather: result element (e, k) is table element (r, k) with r the signed reading of word e clamped into [0, N - 1].
-/
import Idealize.ShloMosaic.PureOps.Ideal
import Idealize.ShloMosaic.PureOps.Ideal.Laws
import Idealize.ShloMosaic.Lib.ValueIdx
import Idealize.ShloMosaic.Lib.ReduceAll

noncomputable section

open scoped BigOperators

namespace Cert.ScatterGather

open Idealize.ShloMosaic Idealize.ShloMosaic.ValueIdx

/-! ## Scatter-add along rows -/

/-- The dimension numbers of a scatter of whole rows: the update's axis 1 is the window, the table's axis 0 is
    the scattered one, one index word per update row. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k' : Fin C)

/-- On the row axis the window of update element (e, k') starts at the signed reading of word e. -/
theorem start_row : (rowScatter N E C wf).start (ix2 e k') idx 0 = (idx (ix2 e 0)).toInt := by
  unfold ScatterDims.start
  rw [dif_pos (show (0 : Fin 2) ∈ (rowScatter N E C wf).scatterDimsToOperandDims from List.mem_singleton.mpr rfl)]
  have hsi : (rowScatter N E C wf).siIdx (ix2 e k') ⟨List.idxOf (0 : Fin 2) (rowScatter N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis it starts at 0. -/
theorem start_col : (rowScatter N E C wf).start (ix2 e k') idx 1 = 0 := rfl

/-- The window coordinate on the row axis is 0 … -/
theorem window_row : (rowScatter N E C wf).window (ix2 e k') 0 = 0 := rfl

/-- … and on the column axis it is k'. -/
theorem window_col : (rowScatter N E C wf).window (ix2 e k') 1 = k'.val := rfl

end Scatter

section ScatterIdx
variable {N E C w : Nat} (wf : ScatterDims.WF ⟨2, ![N, C]⟩ ⟨2, ![E, 1]⟩ ⟨2, ![E, C]⟩ [1] [0] [0] 1)
  (idx : IVec ⟨2, ![E, 1]⟩ w)

/-- WHERE AN UPDATE ELEMENT LANDS: (e, k') lands on (i, k) exactly when word e reads i and k' = k. -/
theorem resultIdx_rows (e : Fin E) (k' : Fin C) (i : Fin N) (k : Fin C) :
    (rowScatter N E C wf).resultIdx? (ix2 e k') idx = some (ix2 i k) ↔ (idx (ix2 e 0)).toInt = (i.val : ℤ) ∧ k' = k := by
  unfold ScatterDims.resultIdx?
  split
  · rename_i h
    rw [Option.some.injEq]
    constructor
    · intro hf
      have h0 := congrArg Fin.val (congrFun hf 0)
      have h1 := congrArg Fin.val (congrFun hf 1)
      have g0 := (h 0).1
      simp only [start_row, window_row, start_col, window_col] at h0 h1 g0
      refine ⟨?_, Fin.ext ?_⟩
      · show (idx (ix2 e 0)).toInt = (i.val : ℤ)
        have : ((idx (ix2 e 0)).toInt + ((0 : ℕ) : ℤ)).toNat = i.val := h0
        omega
      · have : ((0 : ℤ) + (k'.val : ℤ)).toNat = k.val := h1
        omega
    · rintro ⟨hv, rfl⟩
      funext a; refine Fin.ext ?_
      match a with
      | ⟨0, _⟩ =>
        show ((rowScatter N E C wf).start (ix2 e k') idx 0 + ((rowScatter N E C wf).window (ix2 e k') 0 : ℤ)).toNat = i.val
        rw [start_row, window_row, hv]; omega
      | ⟨1, _⟩ =>
        show ((rowScatter N E C wf).start (ix2 e k') idx 1 + ((rowScatter N E C wf).window (ix2 e k') 1 : ℤ)).toNat = k'.val
        rw [start_col, window_col]; omega
  · rename_i h
    constructor
    · intro hf; exact absurd hf (by simp)
    · rintro ⟨hv, rfl⟩
      refine absurd (fun a => ?_) h
      match a with
      | ⟨0, _⟩ =>
        show 0 ≤ (rowScatter N E C wf).start (ix2 e k') idx 0 + ((rowScatter N E C wf).window (ix2 e k') 0 : ℤ) ∧
          (rowScatter N E C wf).start (ix2 e k') idx 0 + ((rowScatter N E C wf).window (ix2 e k') 0 : ℤ) < (N : ℤ)
        rw [start_row, window_row, hv]; have := i.isLt; omega
      | ⟨1, _⟩ =>
        show 0 ≤ (rowScatter N E C wf).start (ix2 e k') idx 1 + ((rowScatter N E C wf).window (ix2 e k') 1 : ℤ) ∧
          (rowScatter N E C wf).start (ix2 e k') idx 1 + ((rowScatter N E C wf).window (ix2 e k') 1 : ℤ) < (C : ℤ)
        rw [start_col, window_col]; have := k'.isLt; omega

/-- THE SCATTER-ADD READ AT (i, k): the table's element plus the updates (e, k) of the rows e whose word reads i. -/
theorem scatterAdd_rows_apply (x : (⟨2, ![N, C]⟩ : Shape).Idx → EReal) (upd : (⟨2, ![E, C]⟩ : Shape).Idx → EReal)
    (i : Fin N) (k : Fin C) :
    Ideal.hostScatterAdd (rowScatter N E C wf) x idx upd (ix2 i k)
      = x (ix2 i k) + ∑ e ∈ Finset.univ.filter (fun e : Fin E => (idx (ix2 e 0)).toInt = (i.val : ℤ)), upd (ix2 e k) := by
  unfold Ideal.hostScatterAdd
  congr 1
  rw [Finset.sum_filter, sum_idx2, Finset.sum_filter]
  refine Finset.sum_congr rfl fun e _ => ?_
  simp only [resultIdx_rows]
  by_cases hv : (idx (ix2 e 0)).toInt = (i.val : ℤ)
  · simp only [hv, true_and, if_true]
    rw [Finset.sum_ite_eq' Finset.univ k (fun b => upd (ix2 e b))]
    simp
  · simp only [hv, false_and, if_false, Finset.sum_const_zero]

end ScatterIdx

/-! ## Gather along rows -/

/-- The dimension numbers of a gather of whole rows: one index word per result row names a table row
    (slices of one row, all C columns), the result's axis 1 runs over the columns. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Gather
variable {α : Type} {N E C w : Nat}

/-- THE GATHER READ AT (e, k): the table at row "word e read signed, clamped into [0, N - 1]", column k. -/
theorem gather_rows_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGather N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGather N E C wf).start (ix2 e k) idx 0 + (rowGather N E C wf).batchCoord (ix2 e k) 0
        + (rowGather N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e k) ⟨List.idxOf (0 : Fin 2) (rowGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E C wf).start (ix2 e k) idx 1 + (rowGather N E C wf).batchCoord (ix2 e k) 1
        + (rowGather N E C wf).offCoord (ix2 e k) 1 = k.val
    rw [GatherDims.batchCoord_eq_zero _ _ _ List.not_mem_nil]
    have hs : (rowGather N E C wf).start (ix2 e k) idx 1 = 0 := rfl
    have ho : (rowGather N E C wf).offCoord (ix2 e k) 1 = k.val := rfl
    rw [hs, ho]; omega

/-- The same, with the table's row named by the caller: any r whose number is the clamped reading of word e. -/
theorem gather_rows_apply_of_eq (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) (r : Fin N)
    (hr : min (idx (ix2 e 0)).toInt.toNat (N - 1) = r.val) :
    Host.gather (rowGather N E C wf) x idx (ix2 e k) = x (ix2 r k) := by
  rw [gather_rows_apply hN wf]
  refine congrArg x (funext fun a => ?_)
  match a with
  | ⟨0, _⟩ => exact Fin.ext hr
  | ⟨1, _⟩ => rfl

end Gather

/-! ## Row lookup with a fill value for row numbers out of range

A lookup of rows of a table of 50000 rows by 800000 signed row numbers, in the form a lookup with "fill" mode
takes: a negative number is first wrapped by adding 50000; a row number that after that is outside [0, 49999]
gives a row of the fill value; otherwise the (clamped) gather gives the table's row. For a row number already
in [0, 50000) nothing is wrapped, both range tests pass, nothing is clamped, and the result is the table's row. -/

/-- A left fold by `and` over one-bit words that are all 1, started at 1, is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduction by `and` from 1 is 1 at a result index when every element that reduces into it is 1. -/
theorem reduce_andi_eq_one_of_all {s t u : Shape} {axes : List (Fin s.rank)} (x : s.Idx → BitVec 1)
    (init : u.Idx → BitVec 1) (h : s.ReducesTo axes t) (hu : 0 < u.numel) (j : t.Idx)
    (hi : init (Shape.Idx.first hu) = 1#1) (hx : ∀ i, h.drop i = j → x i = 1#1) :
    Host.reduce IntOp.andi x init h hu j = 1#1 := by
  rw [Host.reduce_eq_foldl, hi]
  refine foldl_andi_one x _ fun i hi' => ?_
  rw [List.mem_filter] at hi'
  exact hx i (by simpa using hi'.2)

/-- A vector of 800000 entries broadcast along axis 0 of an [800000, m] array reads, at (e, c), its entry e. -/
theorem broadcast_rows_apply {α : Type} {m : Nat}
    (hb : (⟨1, ![800000]⟩ : Shape).BroadcastsInDim ⟨2, ![800000, m]⟩ (![0] : Fin 1 → Fin 2))
    (x : (⟨1, ![800000]⟩ : Shape).Idx → α) (i : (⟨2, ![800000, m]⟩ : Shape).Idx) :
    broadcastInDim ⟨2, ![800000, m]⟩ ![0] hb x i = x (ix1 (i 0)) := by
  unfold broadcastInDim
  refine congrArg x (funext fun a => Fin.ext ?_)
  match a with
  | ⟨0, _⟩ => rfl

section Take
variable {F : FTy → Type} [FloatOps F] {C : Nat}
  (hb0 : (⟨0, ![]⟩ : Shape).BroadcastsInDim ⟨1, ![800000]⟩ (![] : Fin 0 → Fin (⟨1, ![800000]⟩ : Shape).rank))
  (hb1 : (⟨1, ![800000]⟩ : Shape).BroadcastsInDim ⟨2, ![800000, 1]⟩ (![0] : Fin 1 → Fin (⟨2, ![800000, 1]⟩ : Shape).rank))
  (hb2 : (⟨0, ![]⟩ : Shape).BroadcastsInDim ⟨2, ![800000, 1]⟩ (![] : Fin 0 → Fin (⟨2, ![800000, 1]⟩ : Shape).rank))
  (hb3 : (⟨1, ![1]⟩ : Shape).BroadcastsInDim ⟨2, ![1, 1]⟩ (![1] : Fin 1 → Fin (⟨2, ![1, 1]⟩ : Shape).rank))
  (hb4 : (⟨2, ![1, 1]⟩ : Shape).BroadcastsInDim ⟨2, ![800000, 1]⟩ (![0, 1] : Fin 2 → Fin (⟨2, ![800000, 1]⟩ : Shape).rank))
  (hr : (⟨2, ![800000, 1]⟩ : Shape).ReducesTo [1] ⟨1, ![800000]⟩)
  (hu : 0 < (⟨0, ![]⟩ : Shape).numel)
  (hb5 : (⟨1, ![800000]⟩ : Shape).BroadcastsInDim ⟨2, ![800000, C]⟩ (![0] : Fin 1 → Fin (⟨2, ![800000, C]⟩ : Shape).rank))
  (hb6 : (⟨0, ![]⟩ : Shape).BroadcastsInDim ⟨2, ![800000, C]⟩ (![] : Fin 0 → Fin (⟨2, ![800000, C]⟩ : Shape).rank))
  (wf : GatherDims.WF ⟨2, ![50000, C]⟩ ⟨2, ![800000, 1]⟩ ⟨2, ![800000, C]⟩ [1] [0] [] [0] [] 1 ![1, C])

/-- The lookup: wrap negative row numbers, make the row numbers a column, test each against [0, 49999], gather the
    rows, and put the fill value (the pattern 0x7FC00000) where the test failed. -/
def takeFill (T : FVec F ⟨2, ![50000, C]⟩ .f32) (s : IVec ⟨1, ![800000]⟩ 32) : FVec F ⟨2, ![800000, C]⟩ .f32 :=
  select
    (broadcastInDim ⟨2, ![800000, C]⟩ ![0] hb5
      (Host.reduce IntOp.andi
        (andi
          (cmpi .sge
            (broadcastInDim ⟨2, ![800000, 1]⟩ ![0] hb1
              (select (cmpi .slt s (broadcastInDim ⟨1, ![800000]⟩ ![] hb0 (constantI ⟨0, ![]⟩ 32 0#32)))
                (addi s (broadcastInDim ⟨1, ![800000]⟩ ![] hb0 (constantI ⟨0, ![]⟩ 32 50000#32))) s))
            (broadcastInDim ⟨2, ![800000, 1]⟩ ![] hb2 (constantI ⟨0, ![]⟩ 32 0#32)))
          (cmpi .sle
            (broadcastInDim ⟨2, ![800000, 1]⟩ ![0] hb1
              (select (cmpi .slt s (broadcastInDim ⟨1, ![800000]⟩ ![] hb0 (constantI ⟨0, ![]⟩ 32 0#32)))
                (addi s (broadcastInDim ⟨1, ![800000]⟩ ![] hb0 (constantI ⟨0, ![]⟩ 32 50000#32))) s))
            (broadcastInDim ⟨2, ![800000, 1]⟩ ![0, 1] hb4
              (broadcastInDim ⟨2, ![1, 1]⟩ ![1] hb3 (constantI ⟨1, ![1]⟩ 32 49999#32)))))
        (constantI ⟨0, ![]⟩ 1 1#1) hr hu))
    (Host.gather (rowGather 50000 800000 C wf) T
      (broadcastInDim ⟨2, ![800000, 1]⟩ ![0] hb1
        (select (cmpi .slt s (broadcastInDim ⟨1, ![800000]⟩ ![] hb0 (constantI ⟨0, ![]⟩ 32 0#32)))
          (addi s (broadcastInDim ⟨1, ![800000]⟩ ![] hb0 (constantI ⟨0, ![]⟩ 32 50000#32))) s)))
    (broadcastInDim ⟨2, ![800000, C]⟩ ![] hb6 (constant ⟨0, ![]⟩ .f32 0x7FC00000#32))

/-- A nonnegative row number is not wrapped. -/
theorem wrap_apply (s : IVec ⟨1, ![800000]⟩ 32) (j : (⟨1, ![800000]⟩ : Shape).Idx) (h0 : 0 ≤ (s j).toInt) :
    select (cmpi .slt s (broadcastInDim ⟨1, ![800000]⟩ ![] hb0 (constantI ⟨0, ![]⟩ 32 0#32)))
      (addi s (broadcastInDim ⟨1, ![800000]⟩ ![] hb0 (constantI ⟨0, ![]⟩ 32 50000#32))) s j = s j := by
  show Scalar.select (IntOp.cmpi .slt (s j) 0#32) _ _ = s j
  unfold Scalar.select
  rw [if_neg]
  intro hc
  have := IntOp.cmpi_slt.1 hc
  rw [show (0#32 : BitVec 32).toInt = 0 from by decide] at this
  omega

/-- THE LOOKUP READ AT (e, k), for a row number in [0, 50000): the table's row of that number, column k. -/
theorem takeFill_apply (T : FVec F ⟨2, ![50000, C]⟩ .f32) (s : IVec ⟨1, ![800000]⟩ 32) (e : Fin 800000) (k : Fin C)
    (h0 : 0 ≤ (s (ix1 e)).toInt) (h1 : (s (ix1 e)).toInt < 50000) :
    takeFill hb0 hb1 hb2 hb3 hb4 hr hu hb5 hb6 wf T s (ix2 e k)
      = T (ix2 ⟨(s (ix1 e)).toInt.toNat, by omega⟩ k) := by
  unfold takeFill
  rw [select_apply, broadcast_rows_apply hb5]
  -- the row-number column read at row e is the row number e itself
  have hv : ∀ i : (⟨2, ![800000, 1]⟩ : Shape).Idx, i 0 = e →
      broadcastInDim ⟨2, ![800000, 1]⟩ ![0] hb1
        (select (cmpi .slt s (broadcastInDim ⟨1, ![800000]⟩ ![] hb0 (constantI ⟨0, ![]⟩ 32 0#32)))
          (addi s (broadcastInDim ⟨1, ![800000]⟩ ![] hb0 (constantI ⟨0, ![]⟩ 32 50000#32))) s) i = s (ix1 e) := by
    intro i hi
    rw [broadcast_rows_apply hb1, hi, wrap_apply hb0 s (ix1 e) h0]
  -- both range tests pass at row e
  have hok : Host.reduce IntOp.andi
        (andi
          (cmpi .sge
            (broadcastInDim ⟨2, ![800000, 1]⟩ ![0] hb1
              (select (cmpi .slt s (broadcastInDim ⟨1, ![800000]⟩ ![] hb0 (constantI ⟨0, ![]⟩ 32 0#32)))
                (addi s (broadcastInDim ⟨1, ![800000]⟩ ![] hb0 (constantI ⟨0, ![]⟩ 32 50000#32))) s))
            (broadcastInDim ⟨2, ![800000, 1]⟩ ![] hb2 (constantI ⟨0, ![]⟩ 32 0#32)))
          (cmpi .sle
            (broadcastInDim ⟨2, ![800000, 1]⟩ ![0] hb1
              (select (cmpi .slt s (broadcastInDim ⟨1, ![800000]⟩ ![] hb0 (constantI ⟨0, ![]⟩ 32 0#32)))
                (addi s (broadcastInDim ⟨1, ![800000]⟩ ![] hb0 (constantI ⟨0, ![]⟩ 32 50000#32))) s))
            (broadcastInDim ⟨2, ![800000, 1]⟩ ![0, 1] hb4
              (broadcastInDim ⟨2, ![1, 1]⟩ ![1] hb3 (constantI ⟨1, ![1]⟩ 32 49999#32)))))
        (constantI ⟨0, ![]⟩ 1 1#1) hr hu (ix1 ((ix2 e k : (⟨2, ![800000, C]⟩ : Shape).Idx) 0)) = 1#1 := by
    refine reduce_andi_eq_one_of_all _ _ hr hu _ rfl fun i hi => ?_
    have hi0 : i 0 = e := by
      have := congrArg Fin.val (congrFun hi 0)
      exact Fin.ext this
    show IntOp.andi (IntOp.cmpi .sge _ 0#32) (IntOp.cmpi .sle _ 49999#32) = 1#1
    rw [hv i hi0, IntOp.andi_eq_one, IntOp.cmpi_sge, IntOp.cmpi_sle,
      show (0#32 : BitVec 32).toInt = 0 from by decide, show (49999#32 : BitVec 32).toInt = 49999 from by decide]
    omega
  rw [hok, select_one]
  refine gather_rows_apply_of_eq (by decide) wf T _ e k _ ?_
  rw [hv (ix2 e 0) rfl]
  show min (s (ix1 e)).toInt.toNat (50000 - 1) = (s (ix1 e)).toInt.toNat
  omega

end Take

end Cert.ScatterGather

end
-- ==== Proof.LibVecScatter.lean ====
/-
  Scatter-add into a vector, read at an index. A vector of N entries; E positions, held as an [E, 1] array of integer
  words; E update values. Update e lands on entry i exactly when the signed reading of word e is i, so entry i
  receives the sum of the updates whose word reads i. The same sum is what a one-column matrix [N, 1] receives at
  (i, 0) from one-column update rows, so the two scatters agree entry by entry.
-/
import Idealize.ShloMosaic.PureOps.Ideal
import Idealize.ShloMosaic.PureOps.Ideal.Laws
import Idealize.ShloMosaic.Lib.ValueIdx
import proofs.«155261_j31147102831210_1_alg».proof.Proof.LibScatterGather

noncomputable section

open scoped BigOperators

namespace Cert.VecScatter

open Idealize.ShloMosaic Idealize.ShloMosaic.ValueIdx

/-- A rank-1 index is its one coordinate. -/
def idxEquiv1 {n : Nat} : (⟨1, ![n]⟩ : Shape).Idx ≃ Fin n where
  toFun j := j 0
  invFun a := ix1 a
  left_inv j := (eq_ix1 j).symm
  right_inv a := rfl

/-- A sum over the indices of a vector is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of single entries into a vector: no window axis on the updates, the vector's
    one axis is the scattered one, one index word per update. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section
variable {N E w : Nat} (wf : ScatterDims.WF ⟨1, ![N]⟩ ⟨2, ![E, 1]⟩ ⟨1, ![E]⟩ [] [0] [0] 1)
  (idx : IVec ⟨2, ![E, 1]⟩ w)

/-- Update e's window starts at the signed reading of word e. -/
theorem start_vec (e : Fin E) : (vecScatter N E wf).start (ix1 e) idx 0 = (idx (ix2 e 0)).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- There is no window axis: the window coordinate is 0. -/
theorem window_vec (e : Fin E) : (vecScatter N E wf).window (ix1 e) 0 = 0 := rfl

/-- WHERE AN UPDATE LANDS: update e lands on entry i exactly when word e reads i. -/
theorem resultIdx_vec (e : Fin E) (i : Fin N) :
    (vecScatter N E wf).resultIdx? (ix1 e) idx = some (ix1 i) ↔ (idx (ix2 e 0)).toInt = (i.val : ℤ) := by
  unfold ScatterDims.resultIdx?
  split
  · rename_i h
    rw [Option.some.injEq]
    constructor
    · intro hf
      have h0 := congrArg Fin.val (congrFun hf 0)
      simp only [start_vec, window_vec] at h0
      have g0 := (h 0).1
      simp only [start_vec, window_vec] at g0
      have : ((idx (ix2 e 0)).toInt + ((0 : ℕ) : ℤ)).toNat = i.val := h0
      omega
    · intro hv
      funext a; refine Fin.ext ?_
      match a with
      | ⟨0, _⟩ =>
        show ((vecScatter N E wf).start (ix1 e) idx 0 + ((vecScatter N E wf).window (ix1 e) 0 : ℤ)).toNat = i.val
        rw [start_vec, window_vec, hv]; omega
  · rename_i h
    constructor
    · intro hf; exact absurd hf (by simp)
    · intro hv
      refine absurd (fun a => ?_) h
      match a with
      | ⟨0, _⟩ =>
        show 0 ≤ (vecScatter N E wf).start (ix1 e) idx 0 + ((vecScatter N E wf).window (ix1 e) 0 : ℤ) ∧
          (vecScatter N E wf).start (ix1 e) idx 0 + ((vecScatter N E wf).window (ix1 e) 0 : ℤ) < (N : ℤ)
        rw [start_vec, window_vec, hv]; have := i.isLt; omega

/-- THE SCATTER-ADD READ AT i: the vector's entry plus the updates e whose word reads i. -/
theorem scatterAdd_vec_apply (x : (⟨1, ![N]⟩ : Shape).Idx → EReal) (upd : (⟨1, ![E]⟩ : Shape).Idx → EReal) (i : Fin N) :
    Ideal.hostScatterAdd (vecScatter N E wf) x idx upd (ix1 i)
      = x (ix1 i) + ∑ e ∈ Finset.univ.filter (fun e : Fin E => (idx (ix2 e 0)).toInt = (i.val : ℤ)), upd (ix1 e) := by
  unfold Ideal.hostScatterAdd
  congr 1
  rw [Finset.sum_filter, sum_idx1, Finset.sum_filter]
  refine Finset.sum_congr rfl fun e _ => ?_
  simp only [resultIdx_vec]

/-- A constant scattered into a constant vector, and the same constant scattered as one-column rows into a constant
    one-column matrix, agree: entry i of the first is entry (i, 0) of the second. -/
theorem scatterAdd_vec_eq_col (wf' : ScatterDims.WF ⟨2, ![N, 1]⟩ ⟨2, ![E, 1]⟩ ⟨2, ![E, 1]⟩ [1] [0] [0] 1)
    (z o : EReal) (i : Fin N) :
    Ideal.hostScatterAdd (vecScatter N E wf) (fun _ => z) idx (fun _ => o) (ix1 i)
      = Ideal.hostScatterAdd (Cert.ScatterGather.rowScatter N E 1 wf') (fun _ => z) idx (fun _ => o) (ix2 i (0 : Fin 1)) := by
  rw [scatterAdd_vec_apply, Cert.ScatterGather.scatterAdd_rows_apply]

end

end Cert.VecScatter

end
-- ==== Proof.LibERealAlgebra.lean ====
/- General facts about the extended reals as the exact ("ideal") reading of float programs uses them: sums,
   quotients and square roots of finite values stay finite and are the real operations; a few float words as the
   exact reals they denote; and two finite-sum identities over the reals. -/
import Idealize.ShloMosaic.PureOps.Ideal
import Idealize.ShloMosaic.PureOps.Ideal.Laws
import Mathlib.Data.EReal.Inv
import Mathlib.Analysis.SpecialFunctions.Pow.Real
import Mathlib.Algebra.BigOperators.Group.Finset.Basic
import Mathlib.Tactic

noncomputable section

namespace Cert.LibEReal

open Idealize.ShloMosaic
open scoped BigOperators

/-- A finite sum of finite extended reals is the (finite) real sum. -/
theorem coe_sum {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The quotient of two finite values by a nonzero divisor is the real quotient. -/
theorem div_coe' (a b : ℝ) (hb : b ≠ 0) : Ideal.div (a : EReal) (b : EReal) = ((a / b : ℝ) : EReal) := by
  rw [Ideal.div_coe hb, ← EReal.coe_mul, mul_one_div]

/-- The square root of a nonnegative finite value is the real square root. -/
theorem sqrt_coe (x : ℝ) (hx : 0 ≤ x) : Ideal.sqrt (x : EReal) = ((Real.sqrt x : ℝ) : EReal) := by
  rw [Ideal.sqrt_coe, if_neg (not_lt.mpr hx)]

/-- The reciprocal square root of a positive finite value is the reciprocal of the real square root. -/
theorem rsqrt_coe (x : ℝ) (hx : 0 < x) : Ideal.rsqrt (x : EReal) = (((Real.sqrt x)⁻¹ : ℝ) : EReal) := by
  rw [Ideal.rsqrt_coe, if_neg (not_lt.mpr hx.le), if_neg hx.ne']

/-- Multiplying by the reciprocal square root of a positive value is dividing by its square root. -/
theorem mul_rsqrt_eq_div_sqrt (a x : ℝ) (hx : 0 < x) :
    (a : EReal) * Ideal.rsqrt (x : EReal) = Ideal.div (a : EReal) (Ideal.sqrt (x : EReal)) := by
  have hs : Real.sqrt x ≠ 0 := (Real.sqrt_pos.mpr hx).ne'
  rw [rsqrt_coe x hx, sqrt_coe x hx.le, div_coe' a _ hs, ← EReal.coe_mul, div_eq_mul_inv]

/-- The float word `0x3F800000` denotes `1`. -/
theorem ofBits_one : Ideal.ofBits .f32 0x3F800000#32 = 1 := by
  simp [Ideal.ofBits, Ideal.ieee, -EReal.coe_mul]; norm_num

/-- The float word `0x46800000` denotes `16384 = 2 ^ 14`. -/
theorem ofBits_16384 : Ideal.ofBits .f32 0x46800000#32 = ((16384 : ℝ) : EReal) := by
  simp [Ideal.ofBits, Ideal.ieee, -EReal.coe_mul]; norm_num

/-- The float word `0x3727C5AC` (the float nearest `1e-5`) denotes a positive real, `10995116 · 2 ^ (-40)`. -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The float word `0x3C23D70A` (the float nearest `0.01`) denotes a real, `10737418 · 2 ^ (-30)`. -/
theorem ofBits_slope : ∃ s : ℝ, Ideal.ofBits .f32 0x3C23D70A#32 = (s : EReal) := by
  refine ⟨(10737418 : ℝ) * (2 : ℝ) ^ (-30 : ℤ), ?_⟩
  simp [Ideal.ofBits, Ideal.ieee, -EReal.coe_mul]

/-- Adding a self-loop (a `1` on the diagonal) to row `i` raises its row sum by `1`. -/
theorem rowsum_selfloop {n : ℕ} (g : Fin n → ℝ) (i : Fin n) :
    ∑ j, (g j + if i = j then 1 else 0) = (∑ j, g j) + 1 := by
  rw [Finset.sum_add_distrib, Finset.sum_ite_eq Finset.univ i (fun _ => (1 : ℝ)), if_pos (Finset.mem_univ i)]

/-- Row `i` of the symmetrically normalised matrix `D (G + I) D` applied to `hp`: the scale `d i` comes out of the
    sum, and the diagonal `1` contributes the single term `d i * hp i`. -/
theorem normalized_product {n : ℕ} (g d hp : Fin n → ℝ) (i : Fin n) :
    ∑ j, (((g j + if i = j then 1 else 0) * d i) * d j) * hp j
      = d i * ((∑ j, g j * (d j * hp j)) + d i * hp i) := by
  have h : ∀ j, (((g j + if i = j then 1 else 0) * d i) * d j) * hp j
      = d i * (g j * (d j * hp j)) + (if i = j then d i * (d j * hp j) else 0) := by
    intro j
    split_ifs <;> ring
  rw [Finset.sum_congr rfl (fun j _ => h j), Finset.sum_add_distrib, ← Finset.mul_sum,
    Finset.sum_ite_eq Finset.univ i (fun j => d i * (d j * hp j)), if_pos (Finset.mem_univ i)]
  ring

/-- The sum of two finite values is the real sum (the coercion pushed outward). -/
theorem coe_add (a b : ℝ) : (a : EReal) + (b : EReal) = ((a + b : ℝ) : EReal) := (EReal.coe_add a b).symm

/-- The difference of two finite values is the real difference (the coercion pushed outward). -/
theorem coe_sub (a b : ℝ) : (a : EReal) - (b : EReal) = ((a - b : ℝ) : EReal) := (EReal.coe_sub a b).symm

/-- The product of two finite values is the real product (the coercion pushed outward). -/
theorem coe_mul (a b : ℝ) : (a : EReal) * (b : EReal) = ((a * b : ℝ) : EReal) := (EReal.coe_mul a b).symm

/-- The negative of a finite value is the real negative (the coercion pushed outward). -/
theorem coe_neg (a : ℝ) : -(a : EReal) = ((-a : ℝ) : EReal) := (EReal.coe_neg a).symm

/-- A mean of squares (over `16384` terms' worth) is nonnegative. -/
theorem sum_sq_div_nonneg {n : ℕ} (f : Fin n → ℝ) : 0 ≤ (∑ k, f k * f k) / 16384 :=
  div_nonneg (Finset.sum_nonneg fun k _ => mul_self_nonneg (f k)) (by norm_num)

/-- A mean of squares plus a positive constant is positive. -/
theorem sum_sq_div_add_pos {n : ℕ} (f : Fin n → ℝ) {e : ℝ} (he : 0 < e) : 0 < (∑ k, f k * f k) / 16384 + e :=
  add_pos_of_nonneg_of_pos (sum_sq_div_nonneg f) he

end Cert.LibEReal

end
-- ==== Proof.DegReal.lean ====
/-
  The in-degree is a nonnegative real.

  The degree of node p is zero plus a one for every edge whose destination word reads p: a finite sum of ones.
-/
import proofs.«155261_j31147102831210_1_alg».proof.Proof.Chain
import proofs.«155261_j31147102831210_1_alg».proof.Proof.LibVecScatter
import proofs.«155261_j31147102831210_1_alg».proof.Proof.LibERealAlgebra
import Idealize.ShloMosaic.Lib.Pipeline.Value
import Idealize.ShloMosaic.Lib.ValueIdx

noncomputable section

namespace Cert.KernelIdeal.Hand

open Idealize.ShloMosaic Idealize.ShloMosaic.ValueIdx Cert.KernelIdeal Cert.KernelIdeal.Facts₀ Cert.KernelIdeal.Facts

/-- A scalar constant spread over any shape reads the constant everywhere. -/
theorem splat_apply {t : Shape} (h : S_.BroadcastsInDim t ![]) (w : BitVec 32) (i : t.Idx) :
    broadcastInDim t ![] h (constant (F := Ideal) S_ .f32 w) i = Ideal.ofBits .f32 w :=
  broadcastInDim_apply _ h _ i (fun a => a.elim0) (fun a => a.elim0)

/-- A finite sum of ones is a nonnegative real, whatever the index set. -/
theorem sum_ones_real {ι : Type} (S : Finset ι) (f : ι → EReal) (hf : ∀ e, f e = 1) :
    ∃ d : ℝ, 0 ≤ d ∧ ∑ e ∈ S, f e = (d : EReal) :=
  ⟨∑ _e ∈ S, (1 : ℝ), Finset.sum_nonneg fun _ _ => zero_le_one, by
    rw [← Cert.LibEReal.coe_sum]
    exact Finset.sum_congr rfl fun e _ => by rw [hf e, EReal.coe_one]⟩

/-- The degree's dimension numbers are those of a scatter of single entries into a vector. -/
theorem deg_dims : scatter_S100000_S1600000x1_S1600000_n_0_0_1
    = Cert.VecScatter.vecScatter 100000 1600000 scatter_S100000_S1600000x1_S1600000_n_0_0_1_wf := rfl

/-- The degree as the exact scatter-add of ones into zeros. -/
theorem deg_eq (x4 : (⟨S1600000, .i32⟩ : BufTy).Contents (Elt Ideal)) :
    deg (F := Ideal) x4 = Ideal.hostScatterAdd scatter_S100000_S1600000x1_S1600000_n_0_0_1
      (broadcastInDim S100000 ![] bcast_S_S100000 (constant (F := Ideal) S_ .f32 0x00000000#32))
      (broadcastInDim S1600000x1 ![0] bcast_S1600000_S1600000x1_0 x4)
      (broadcastInDim S1600000 ![] bcast_S_S1600000 (constant (F := Ideal) S_ .f32 0x3F800000#32)) := by
  unfold deg Host.scatterAdd
  exact Ideal.hostScatterAdd_def _ _ _ _ _

/-- THE DEGREE is a nonnegative real. -/
theorem deg_real (x4 : (⟨S1600000, .i32⟩ : BufTy).Contents (Elt Ideal)) (p : Fin 100000) :
    ∃ d : ℝ, 0 ≤ d ∧ deg (F := Ideal) x4 (ix1 p) = (d : EReal) := by
  rw [deg_eq, deg_dims, Cert.VecScatter.scatterAdd_vec_apply, splat_apply, Ideal.ofBits_zero_f32, zero_add]
  exact sum_ones_real _ _ fun e => by rw [splat_apply, Cert.LibEReal.ofBits_one]

/-- For ANY per-node vector `v`: the inverse square root of `v + 1`, at a node. (Stated over a variable vector, so
    that nothing about the degree's own definition is ever consulted.) -/
theorem rsqrt_add_one_apply (v : FVec Ideal S100000 .f32) (i : S100000.Idx) :
    (Host.rsqrt (addf v (ones (F := Ideal))) : FVec Ideal S100000 .f32) i = Ideal.rsqrt (v i + 1) := by
  show Ideal.rsqrt (v i + broadcastInDim S100000 ![] bcast_S_S100000 (constant (F := Ideal) S_ .f32 0x3F800000#32) i) = _
  rw [splat_apply, Cert.LibEReal.ofBits_one]

/-- For ANY per-node vector `v`: the reciprocal of `max v 1`, at a node. -/
theorem div_max_one_apply (v : FVec Ideal S100000 .f32) (i : S100000.Idx) :
    (Host.divf (ones (F := Ideal)) (maximumf v (ones (F := Ideal))) : FVec Ideal S100000 .f32) i = Ideal.div 1 (max (v i) 1) := by
  show Ideal.div (broadcastInDim S100000 ![] bcast_S_S100000 (constant (F := Ideal) S_ .f32 0x3F800000#32) i)
    (max (v i) (broadcastInDim S100000 ![] bcast_S_S100000 (constant (F := Ideal) S_ .f32 0x3F800000#32) i)) = _
  rw [splat_apply, Cert.LibEReal.ofBits_one]

/-- The inverse square root of the degree plus one, at a node. -/
theorem isq_apply (x4 : (⟨S1600000, .i32⟩ : BufTy).Contents (Elt Ideal)) (p : Fin 100000) :
    isq (F := Ideal) x4 (ix1 p) = Ideal.rsqrt (deg (F := Ideal) x4 (ix1 p) + 1) := by
  unfold isq
  exact rsqrt_add_one_apply (deg (F := Ideal) x4) (ix1 p)

/-- The reciprocal of the degree's maximum with one, at a node. -/
theorem invd_apply (x4 : (⟨S1600000, .i32⟩ : BufTy).Contents (Elt Ideal)) (p : Fin 100000) :
    invd (F := Ideal) x4 (ix1 p) = Ideal.div 1 (max (deg (F := Ideal) x4 (ix1 p)) 1) := by
  unfold invd
  exact div_max_one_apply (deg (F := Ideal) x4) (ix1 p)

end Cert.KernelIdeal.Hand

end
-- ==== Proof.ScaleCols.lean ====
/-
  The three columns of the scale array.

  Entry (p, j) of the scale array, for j = 0, 1, 2, is entry p of `isq`, of `isq·isq`, of `invd`: the array is three
  one-column arrays side by side, each a per-node vector made a column.
-/
import proofs.«155261_j31147102831210_1_alg».proof.Proof.Chain
import Idealize.ShloMosaic.Lib.Pipeline.Value
import Idealize.ShloMosaic.Lib.ValueIdx

noncomputable section

namespace Cert.KernelIdeal.Hand

open Idealize.ShloMosaic Idealize.ShloMosaic.ValueIdx Cert.KernelIdeal Cert.KernelIdeal.Facts₀ Cert.KernelIdeal.Facts

variable {F : FTy → Type} [FloatOps F]

/-- A per-node vector made a column reads, in row p, the node's entry. -/
theorem column_apply (y : S100000.Idx → Elt F .f32) (p : Fin 100000) :
    broadcastInDim S100000x1 ![0] bcast_S100000_S100000x1_0 y (ix2 p (0 : Fin 1)) = y (ix1 p) :=
  broadcastInDim_apply _ bcast_S100000_S100000x1_0 y _ (ix1 p) (fun a => match a with
    | ⟨0, _⟩ => by show p.val = if (100000 : Nat) = 1 then 0 else p.val; rw [if_neg (by decide)])

/-- The three one-column pieces. -/
abbrev cols (x4 : (⟨S1600000, .i32⟩ : BufTy).Contents (Elt F)) : List ((s : Shape) × (s.Idx → Elt F .f32)) :=
  [⟨S100000x1, broadcastInDim S100000x1 ![0] bcast_S100000_S100000x1_0 (isq x4)⟩,
   ⟨S100000x1, broadcastInDim S100000x1 ![0] bcast_S100000_S100000x1_0 (mulf (isq x4) (isq x4))⟩,
   ⟨S100000x1, broadcastInDim S100000x1 ![0] bcast_S100000_S100000x1_0 (invd x4)⟩]

theorem scale_eq (x4 : (⟨S1600000, .i32⟩ : BufTy).Contents (Elt F)) :
    scale (F := F) x4 = concatenate S100000x3 1 (cols x4) concatenates_S100000x1_S100000x1_S100000x1_S100000x3_d1 := rfl

/-- Off the stacking axis a piece's index keeps the row. -/
theorem row_kept (p : Fin 100000) (j : Fin 3) (b : Fin S100000x1.rank) (hb : b.cast (rfl : S100000x1.rank = S100000x3.rank) ≠ (1 : Fin 2)) :
    ((ix2 p (0 : Fin 1) : S100000x1.Idx) b).val = ((ix2 p j : S100000x3.Idx) (b.cast rfl)).val := by
  match b with
  | ⟨0, _⟩ => rfl
  | ⟨1, _⟩ => exact absurd rfl hb

/-- Column 0 of the scale array is `isq`. -/
theorem scale_col0 (x4 : (⟨S1600000, .i32⟩ : BufTy).Contents (Elt F)) (p : Fin 100000) :
    scale (F := F) x4 (ix2 p (0 : Fin 3)) = isq (F := F) x4 (ix1 p) := by
  rw [scale_eq]
  exact (concatenate_apply_piece (t := S100000x3) (1 : Fin 2) (cols x4) concatenates_S100000x1_S100000x1_S100000x1_S100000x3_d1
    (ix2 p (0 : Fin 3)) 0 (by show (0 : ℕ) < 3; decide) S100000x1 _ rfl rfl 0 rfl (ix2 p (0 : Fin 1)) (row_kept p 0) rfl).trans
    (column_apply _ p)

/-- Column 1 of the scale array is `isq·isq`. -/
theorem scale_col1 (x4 : (⟨S1600000, .i32⟩ : BufTy).Contents (Elt F)) (p : Fin 100000) :
    scale (F := F) x4 (ix2 p (1 : Fin 3)) = FloatOps.mulf (isq (F := F) x4 (ix1 p)) (isq (F := F) x4 (ix1 p)) := by
  rw [scale_eq]
  exact (concatenate_apply_piece (t := S100000x3) (1 : Fin 2) (cols x4) concatenates_S100000x1_S100000x1_S100000x1_S100000x3_d1
    (ix2 p (1 : Fin 3)) 1 (by show (1 : ℕ) < 3; decide) S100000x1 _ rfl rfl 1 rfl (ix2 p (0 : Fin 1)) (row_kept p 1) rfl).trans
    (column_apply _ p)

/-- Column 2 of the scale array is `invd`. -/
theorem scale_col2 (x4 : (⟨S1600000, .i32⟩ : BufTy).Contents (Elt F)) (p : Fin 100000) :
    scale (F := F) x4 (ix2 p (2 : Fin 3)) = invd (F := F) x4 (ix1 p) := by
  rw [scale_eq]
  exact (concatenate_apply_piece (t := S100000x3) (1 : Fin 2) (cols x4) concatenates_S100000x1_S100000x1_S100000x1_S100000x3_d1
    (ix2 p (2 : Fin 3)) 2 (by show (2 : ℕ) < 3; decide) S100000x1 _ rfl rfl 2 rfl (ix2 p (0 : Fin 1)) (row_kept p 2) rfl).trans
    (column_apply _ p)

end Cert.KernelIdeal.Hand

end
-- ==== Proof.Entry.lean ====
/-
  The law that joins the two programs, entry by entry, on the extended reals.

  For one output entry write `a` for the normalised neighbour sum, `h` for the projection's entry, `n` for the plain
  neighbour sum and `d` for the node's in-degree. The degree is a sum of ones, so it is a nonnegative real; hence
  `s = 1/√(d + 1)` is a nonnegative real and `M = max d 1` a real that is at least one. One program forms
  `a·s + h·(s·s) + n·(1/M)`, the other `(a + h·s)·s + n/M`. Multiplication by a nonnegative REAL distributes over every
  sum of extended reals (no finiteness of `a`, `h`, `n` is needed), multiplication is associative, and dividing by a
  nonzero real is multiplying by its reciprocal: the two are equal.
-/
import proofs.«155261_j31147102831210_1_alg».proof.Proof.LibERealAlgebra
import Mathlib.Data.EReal.Operations

noncomputable section

namespace Cert.Entry

open Idealize.ShloMosaic

/-- The degree plus one, as a real. -/
theorem deg_add_one (d : ℝ) : (d : EReal) + 1 = ((d + 1 : ℝ) : EReal) := by
  rw [EReal.coe_add, EReal.coe_one]

/-- The degree's maximum with one, as a real. -/
theorem deg_max_one (d : ℝ) : max (d : EReal) 1 = ((max d 1 : ℝ) : EReal) := by
  rw [← EReal.coe_one]
  exact (EReal.coe_strictMono.monotone.map_max).symm

/-- The inverse square root of the degree plus one is a nonnegative real. -/
theorem rsqrt_deg (d : ℝ) (hd : 0 ≤ d) :
    ∃ s : ℝ, 0 ≤ s ∧ Ideal.rsqrt ((d : EReal) + 1) = (s : EReal) := by
  have hpos : (0 : ℝ) < d + 1 := by linarith
  refine ⟨(Real.sqrt (d + 1))⁻¹, inv_nonneg.mpr (Real.sqrt_nonneg _), ?_⟩
  rw [deg_add_one, Cert.LibEReal.rsqrt_coe _ hpos]

/-- THE LAW: the spectral term with the self-loop folded in and the mean over the neighbours, spelt the two ways. -/
theorem combine (a h n : EReal) (d : ℝ) (hd : 0 ≤ d) :
    a * Ideal.rsqrt ((d : EReal) + 1) + h * (Ideal.rsqrt ((d : EReal) + 1) * Ideal.rsqrt ((d : EReal) + 1))
        + n * Ideal.div 1 (max (d : EReal) 1)
      = (a + h * Ideal.rsqrt ((d : EReal) + 1)) * Ideal.rsqrt ((d : EReal) + 1)
        + Ideal.div n (max (d : EReal) 1) := by
  obtain ⟨s, hs, es⟩ := rsqrt_deg d hd
  have hM : (max d 1 : ℝ) ≠ 0 := by
    have : (1 : ℝ) ≤ max d 1 := le_max_right _ _
    linarith
  rw [es, deg_max_one, Ideal.div_coe hM, Ideal.div_coe hM, one_mul,
    EReal.right_distrib_of_nonneg_of_ne_top (EReal.coe_nonneg.mpr hs) (EReal.coe_ne_top s), mul_assoc]

end Cert.Entry

end
-- ==== Proof.RefValue.lean ====
/-
  The reference's result, read at an entry.

  The reference forms the projection `H = X·Wᵀ + b` by one matrix product and a broadcast bias row; its entry (p, q) is
  `Σₖ X(p,k)·W(q,k) + b(q)`. Every later stage that is not a gather or a row sum reads one entry of each operand, so
  the result's entry (p, q) is `max (((A + H·s)·s + N / M) · ½) 0` with `A`, `N` the entries (p, q) of the two row
  sums, `H` the projection's entry, `s = 1/√(deg p + 1)` and `M = max (deg p) 1` — the broadcasts of a per-node
  vector along the feature axis read the node's entry.
-/
import proofs.«155261_j31147102831210_1_alg».proof.Proof.Gen.ReferenceIdeal.Read

noncomputable section

namespace Cert.ReferenceIdeal.RefValue

open Cert.ReferenceIdeal Cert.ReferenceIdeal.Read Idealize.ShloMosaic Idealize.ShloMosaic.ValueIdx

/-- A per-node vector made a column and spread along the feature axis reads, at (p, q), the node's entry. -/
theorem node_of_32 (p : Fin 100000) (q : Fin 128) : idx_main_v32 (idx_main_v33 (ix2 p q)) = ix1 p :=
  funext fun a => Fin.ext (by match a with | ⟨0, _⟩ => rfl)
theorem node_of_36 (p : Fin 100000) (q : Fin 128) : idx_main_v36 (idx_main_v37 (ix2 p q)) = ix1 p :=
  funext fun a => Fin.ext (by match a with | ⟨0, _⟩ => rfl)
theorem node_of_51 (p : Fin 100000) (q : Fin 128) : idx_main_v51 (idx_main_v52 (ix2 p q)) = ix1 p :=
  funext fun a => Fin.ext (by match a with | ⟨0, _⟩ => rfl)

/-- The bias row spread over the nodes reads, at (p, q), the bias of feature q. -/
theorem feat_of_2 (p : Fin 100000) (q : Fin 128) : idx_main_v2 (idx_main_v3 (ix2 p q)) = ix1 q :=
  funext fun a => Fin.ext (by match a with | ⟨0, _⟩ => rfl)

/-- The product's left index at contraction position k is (p, k). -/
theorem lhs_at (p : Fin 100000) (q k : Fin 128) : lidx_main_v1 (ix2 p q) k = ix2 p k :=
  funext fun a => Fin.ext (by match a with | ⟨0, _⟩ => rfl | ⟨1, _⟩ => rfl)

/-- The product's right index, through the transposition, is (q, k). -/
theorem rhs_at (p : Fin 100000) (q k : Fin 128) : idx_main_v0 (ridx_main_v1 (ix2 p q) k) = ix2 q k :=
  funext fun a => Fin.ext (by match a with | ⟨0, _⟩ => rfl | ⟨1, _⟩ => rfl)

/-- THE PROJECTION at an entry: `Σₖ X(p,k)·W(q,k) + b(q)`. -/
theorem ref_H (x0 : (⟨S100000x128, .f32⟩ : BufTy).Contents (Elt Ideal)) (x1 : (⟨S128x128, .f32⟩ : BufTy).Contents (Elt Ideal))
    (x2 : (⟨S128, .f32⟩ : BufTy).Contents (Elt Ideal)) (p : Fin 100000) (q : Fin 128) :
    val_main_v4 (F := Ideal) x0 x1 x2 (ix2 p q) = (∑ k : Fin 128, x0 (ix2 p k) * x1 (ix2 q k)) + x2 (ix1 q) := by
  rw [val_main_v4_apply, val_main_v1_apply, val_main_v3_apply, val_main_v2_apply, feat_of_2]
  simp only [val_main_v0_apply, lhs_at, rhs_at, Ideal.addf_def]

/-- THE RESULT at an entry, over the two row sums' entries, the projection's entry and the node's degree. -/
theorem ref_entry (x0 : (⟨S100000x128, .f32⟩ : BufTy).Contents (Elt Ideal)) (x1 : (⟨S128x128, .f32⟩ : BufTy).Contents (Elt Ideal))
    (x2 : (⟨S128, .f32⟩ : BufTy).Contents (Elt Ideal)) (x3 x4 : (⟨S1600000, .i32⟩ : BufTy).Contents (Elt Ideal))
    (p : Fin 100000) (q : Fin 128) :
    val_main_v57 (F := Ideal) x0 x1 x2 x3 x4 (ix2 p q)
      = max (((val_main_v31 (F := Ideal) x0 x1 x2 x3 x4 (ix2 p q)
                + val_main_v4 (F := Ideal) x0 x1 x2 (ix2 p q)
                  * Ideal.rsqrt (val_main_v8 (F := Ideal) x4 (ix1 p) + Ideal.ofBits .f32 0x3F800000#32))
              * Ideal.rsqrt (val_main_v8 (F := Ideal) x4 (ix1 p) + Ideal.ofBits .f32 0x3F800000#32)
            + Ideal.div (val_main_v48 (F := Ideal) x0 x1 x2 x3 x4 (ix2 p q))
                (max (val_main_v8 (F := Ideal) x4 (ix1 p)) (Ideal.ofBits .f32 0x3F800000#32)))
          * Ideal.ofBits .f32 0x3F000000#32) (Ideal.ofBits .f32 0x00000000#32) := by
  rw [val_main_v57_apply, val_main_v56_apply, val_main_v54_apply, val_main_v38_apply, val_main_v35_apply,
    val_main_v34_apply, val_main_v33_apply, val_main_v32_apply, node_of_32, val_main_v37_apply, val_main_v36_apply,
    node_of_36, val_main_v53_apply, val_main_v52_apply, val_main_v51_apply, node_of_51, val_main_v50_apply,
    val_main_v49_apply, val_main_cst_9_apply, val_main_v55_apply, val_main_cst_10_apply, val_main_call0_v0_apply,
    val_main_call0_cst_apply, val_main_v11_apply, val_main_v10_apply, val_main_v9_apply, val_main_cst_1_apply]
  simp only [Ideal.addf_def, Ideal.mulf_def, Ideal.maximumf_def, Ideal.hostDivf_def, Ideal.hostUnary_rsqrt_def,
    Ideal.ofBits_def]

end Cert.ReferenceIdeal.RefValue

end
-- ==== Proof.RefChain.lean ====
/-
  The reference applies the same host computation to its own projection.

  Its degree, its normalised row sum and its plain row sum are, operation for operation, the functions `deg`, `agg`
  and `nbr` at the reference's projection `X·Wᵀ + b`: the two programs name their shapes and dimension records
  separately, but these are the same literal data.
-/
import proofs.«155261_j31147102831210_1_alg».proof.Proof.Chain
import proofs.«155261_j31147102831210_1_alg».proof.Proof.Gen.ReferenceIdeal.Read

noncomputable section

namespace Cert.ReferenceIdeal.RefValue

open Idealize.ShloMosaic Cert.ReferenceIdeal.Read Cert.KernelIdeal.Hand

variable {F : FTy → Type} [FloatOps F]

/-- The reference's degree is `deg`. -/
theorem ref_deg (x4 : (⟨Cert.ReferenceIdeal.S1600000, .i32⟩ : BufTy).Contents (Elt F)) :
    val_main_v8 (F := F) x4 = deg (F := F) x4 := rfl

/-- The reference's normalised row sum is `agg` of its projection. -/
theorem ref_agg (x0 : (⟨Cert.ReferenceIdeal.S100000x128, .f32⟩ : BufTy).Contents (Elt F))
    (x1 : (⟨Cert.ReferenceIdeal.S128x128, .f32⟩ : BufTy).Contents (Elt F))
    (x2 : (⟨Cert.ReferenceIdeal.S128, .f32⟩ : BufTy).Contents (Elt F))
    (x3 x4 : (⟨Cert.ReferenceIdeal.S1600000, .i32⟩ : BufTy).Contents (Elt F)) :
    val_main_v31 (F := F) x0 x1 x2 x3 x4 = agg (F := F) (val_main_v4 (F := F) x0 x1 x2) x3 x4 := rfl

/-- The reference's plain row sum is `nbr` of its projection. -/
theorem ref_nbr (x0 : (⟨Cert.ReferenceIdeal.S100000x128, .f32⟩ : BufTy).Contents (Elt F))
    (x1 : (⟨Cert.ReferenceIdeal.S128x128, .f32⟩ : BufTy).Contents (Elt F))
    (x2 : (⟨Cert.ReferenceIdeal.S128, .f32⟩ : BufTy).Contents (Elt F))
    (x3 x4 : (⟨Cert.ReferenceIdeal.S1600000, .i32⟩ : BufTy).Contents (Elt F)) :
    val_main_v48 (F := F) x0 x1 x2 x3 x4 = nbr (F := F) (val_main_v4 (F := F) x0 x1 x2) x3 x4 := rfl

end Cert.ReferenceIdeal.RefValue

end
-- ==== Proof.Bridge.lean ====
/-
  The two programs compute one function of the five argument arrays.

  The kernel side: the second kernel's output array is the combination `E` of the arrays it is entered with — the
  projection `H = X·Wᵀ + b` the first kernel left, and the host computation's two row sums and scale array at that `H`.
  The reference side: its result at (p, q) is `max (((A + H·s)·s + N/M)·½) 0` over ITS projection, which is the same `H`,
  and its two row sums and degree, which are the same host computation at that `H`. The entry law joins them, the degree
  being a nonnegative real.
-/
import proofs.«155261_j31147102831210_1_alg».proof.Proof.ArrH
import proofs.«155261_j31147102831210_1_alg».proof.Proof.ArrFuse
import proofs.«155261_j31147102831210_1_alg».proof.Proof.HostVals
import proofs.«155261_j31147102831210_1_alg».proof.Proof.DegReal
import proofs.«155261_j31147102831210_1_alg».proof.Proof.ScaleCols
import proofs.«155261_j31147102831210_1_alg».proof.Proof.Entry
import proofs.«155261_j31147102831210_1_alg».proof.Proof.RefValue
import proofs.«155261_j31147102831210_1_alg».proof.Proof.RefChain

set_option maxRecDepth 16384

noncomputable section

namespace Cert.KernelIdeal.Hand

open Idealize.ShloMosaic Idealize.ShloMosaic.TcCoe Idealize.ShloMosaic.ValueIdx Idealize.SL.Sem
open Cert.KernelIdeal
open Cert.ReferenceIdeal.Read Cert.ReferenceIdeal.RefValue

/-- The reference's projection is `H`. -/
theorem ref_proj (x0 : S100000x128.Idx → EReal) (x1 : S128x128.Idx → EReal) (x2 : S128.Idx → EReal) :
    val_main_v4 (F := Ideal) x0 x1 x2 = Hfun x0 x1 x2 := funext fun i => by
  obtain ⟨p, q, rfl⟩ : ∃ (p : Fin 100000) (q : Fin 128), i = ix2 p q := ⟨i 0, i 1, eq_ix2 i⟩
  rw [ref_H, Hfun_apply]

/-- ONE FUNCTION: the combination of `H` with the host computation at `H` is the reference's result. -/
theorem result_eq (x0 : S100000x128.Idx → EReal) (x1 : S128x128.Idx → EReal) (x2 : S128.Idx → EReal)
    (x3 x4 : (⟨S1600000, .i32⟩ : BufTy).Contents (Elt Ideal)) :
    Efun (Hfun x0 x1 x2) (agg (F := Ideal) (Hfun x0 x1 x2) x3 x4) (nbr (F := Ideal) (Hfun x0 x1 x2) x3 x4) (scale (F := Ideal) x4)
      = val_main_v57 (F := Ideal) x0 x1 x2 x3 x4 := funext fun i => by
  obtain ⟨p, q, rfl⟩ : ∃ (p : Fin 100000) (q : Fin 128), i = ix2 p q := ⟨i 0, i 1, eq_ix2 i⟩
  obtain ⟨d, hd, ed⟩ := deg_real x4 p
  rw [ref_entry, ref_agg, ref_nbr, ref_deg, ref_proj, Efun_apply, scale_col0, scale_col1, scale_col2, isq_apply,
    invd_apply, ed]
  -- the three entries the law is indifferent to, as unknowns
  generalize agg (F := Ideal) (Hfun x0 x1 x2) x3 x4 (ix2 p q) = A
  generalize nbr (F := Ideal) (Hfun x0 x1 x2) x3 x4 (ix2 p q) = N
  generalize Hfun x0 x1 x2 (ix2 p q) = h
  rw [Cert.LibEReal.ofBits_one, Ideal.mulf_def, Cert.Entry.combine A h N d hd]

section

variable (m : (ℓ : Loc nD τ sig) → Buf (Elt Ideal) ℓ) (ρ : Dev nD → PrngReg)

/-- THE KERNEL'S RESULT ARRAY after the run, as that function of the argument arrays. -/
theorem out_eq (c : Dev nD) :
    W3 m ρ c (Proc.devRef .tc main_v40)
      = val_main_v57 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  have hH : W1 m ρ c (Proc.devRef .tc main_v0)
      = Hfun (m ((c.tc : Thread nD τ).loc main_arg0)) (m ((c.tc : Thread nD τ).loc main_arg1)) (m ((c.tc : Thread nD τ).loc main_arg2)) :=
    (W1_arr m ρ c 3).trans (final0 (V0 m ρ) c)
  have h3 : W1 m ρ c (Proc.devRef .tc main_arg3) = m ((c.tc : Thread nD τ).loc main_arg3) := W1_of_ne m ρ c main_arg3 (by decide)
  have h4 : W1 m ρ c (Proc.devRef .tc main_arg4) = m ((c.tc : Thread nD τ).loc main_arg4) := W1_of_ne m ρ c main_arg4 (by decide)
  refine (W3_arr m ρ c 4).trans ((final1 (V2 m ρ) c).trans ?_)
  show Efun (W2 m ρ c (Proc.devRef .tc main_v0)) (W2 m ρ c (Proc.devRef .tc main_v31)) (W2 m ρ c (Proc.devRef .tc main_v34))
    (W2 m ρ c (Proc.devRef .tc main_v39)) = _
  rw [W2_H, W2_agg, W2_nbr, W2_scale, hH, h3, h4]
  exact result_eq _ _ _ _ _

end

end Cert.KernelIdeal.Hand

end
-- ==== Proof.lean ====
/-
  A graph layer: a linear projection, a degree-normalised aggregation over the edges with a self-loop, a mean over the
  neighbours, their average, and a rectifier — computed by two tiled kernels around a host stretch, against a plain
  reference.

  Both programs form `H = X·Wᵀ + b` (the kernel block by block with the operands rounded to a narrower format on the way
  into the product, which is the identity on the extended reals; the reference by one product), the in-degree `deg` of
  every node, `s = 1/√(deg + 1)`, the gathered rows of `H` along the edges' sources, their sum `A` into the destination
  rows scaled by the sources' `s`, and their plain sum `N`. The reference returns `max (((A + H·s)·s + N / max(deg,1))·½) 0`;
  the second kernel returns `max ((A·s + H·(s·s) + N·(1/max(deg,1)))·½) 0`, reading `s`, `s·s` and `1/max(deg,1)` from the
  three columns of one array. The degree is a sum of ones, so `s` is a nonnegative real and `max(deg,1)` a nonzero real:
  multiplying by `s` distributes over the sum whatever the other entries are, and dividing by `max(deg,1)` is multiplying
  by its reciprocal. No finiteness of the inputs is used.

  The frames: each kernel program is two pipelined regions around one stretch of host operations; every unscoped
  buffer is followed through the four boundaries of the run, and the arguments are never written. The reference's frame
  is its run with the result dropped.
-/
import proofs.«155261_j31147102831210_1_alg».proof.Defs
import proofs.«155261_j31147102831210_1_alg».proof.Proof.Gen.Kernel
import proofs.«155261_j31147102831210_1_alg».proof.Proof.Gen.KernelIdeal
import proofs.«155261_j31147102831210_1_alg».proof.Proof.Gen.ReferenceIdeal
import proofs.«155261_j31147102831210_1_alg».proof.Proof.Gen.Pre_finite_inputs
import proofs.«155261_j31147102831210_1_alg».proof.Proof.Gen.ReferenceIdeal.Run
import proofs.«155261_j31147102831210_1_alg».proof.Proof.Gen.ReferenceIdeal.Read
import proofs.«155261_j31147102831210_1_alg».proof.Proof.RunClaims
import proofs.«155261_j31147102831210_1_alg».proof.Proof.KRunClaims
import proofs.«155261_j31147102831210_1_alg».proof.Proof.Bridge

noncomputable section

namespace Cert.Proof

open Idealize.ShloMosaic Idealize.ShloMosaic.TcCoe Idealize.SL.Sem

/-- The kernel program as printed runs to the end and leaves its arguments as launched. -/
theorem frame_k : Cert.frame_Kernel := fun m ρ _ => Cert.Kernel.Hand.frame (F := Bits) m ρ

/-- So does its reading on the extended reals. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals the two programs end with one result: the kernel's output array after its run, which is the
    reference's composed term at the same arguments. -/
theorem algebraic : Cert.algebraic_KernelIdeal_ReferenceIdeal := by
  intro m ρ m' ρ' _ hagree
  refine ⟨fun c => Cert.KernelIdeal.Hand.W3 m ρ c (Proc.devRef .tc Cert.KernelIdeal.main_v40),
    Cert.KernelIdeal.Hand.run_out (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq, (hagree c).1, (hagree c).2.1, (hagree c).2.2.1, (hagree c).2.2.2.1,
    (hagree c).2.2.2.2]
  exact (Cert.KernelIdeal.Hand.out_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
